-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩
abbrev S1x1 : Shape := ⟨2, ![1, 1]⟩

abbrev nBuf : Space → Nat
  | .hbm => 125
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1600000x1, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S1600000x128, .f32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x1, .f32⟩
  | .hbm, ⟨108, _⟩ => ⟨S1600000x1, .f32⟩
  | .hbm, ⟨109, _⟩ => ⟨S_, .i32⟩
  | .hbm, ⟨110, _⟩ => ⟨S1600000, .i32⟩
  | .hbm, ⟨111, _⟩ => ⟨S1600000, .i1⟩
  | .hbm, ⟨112, _⟩ => ⟨S_, .i32⟩
  | .hbm, ⟨113, _⟩ => ⟨S1600000, .i32⟩
  | .hbm, ⟨114, _⟩ => ⟨S1600000, .i32⟩
  | .hbm, ⟨115, _⟩ => ⟨S1600000, .i32⟩
  | .hbm, ⟨116, _⟩ => ⟨S1600000x1, .i32⟩
  | .hbm, ⟨117, _⟩ => ⟨S1600000x1, .f32⟩
  | .hbm, ⟨118, _⟩ => ⟨S1600000x1, .f32⟩
  | .hbm, ⟨119, _⟩ => ⟨S_, .f32⟩
  | .hbm, ⟨120, _⟩ => ⟨S100000x1, .f32⟩
  | .hbm, ⟨121, _⟩ => ⟨S1600000x1, .i32⟩
  | .hbm, ⟨122, _⟩ => ⟨S100000x1, .f32⟩
  | .hbm, ⟨123, _⟩ => ⟨S1x1, .f32⟩
  | .hbm, ⟨124, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x1, .f32⟩
  | .local _ .vmem, ⟨38, _⟩ => ⟨S4000x1, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x1, .f32⟩
  | .local _ .vmem, ⟨45, _⟩ => ⟨S4000x1, .f32⟩
  | .local _ .vmem, ⟨46, _⟩ => ⟨S4000x1, .f32⟩
  | .local _ .vmem, ⟨47, _⟩ => ⟨S4000x1, .f32⟩
  | .local _ .vmem, ⟨48, _⟩ => ⟨S4000x1, .f32⟩
  | .local _ .vmem, ⟨49, _⟩ => ⟨S4000x1, .f32⟩
  | .local _ .vmem, ⟨50, _⟩ => ⟨S4000x1, .f32⟩
  | .local _ .vmem, ⟨51, _⟩ => ⟨S4000x1, .f32⟩
  | .local _ .vmem, ⟨52, _⟩ => ⟨S4000x1, .f32⟩
  | .local _ .vmem, ⟨53, _⟩ => ⟨S1x1, .f32⟩
  | .local _ .vmem, ⟨54, _⟩ => ⟨S4000x1, .f32⟩
  | .local _ .vmem, ⟨55, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_15 : Ref sig .tc := ⟨.hbm, 109, rfl⟩
abbrev main_v81 : Ref sig .tc := ⟨.hbm, 110, rfl⟩
abbrev main_v82 : Ref sig .tc := ⟨.hbm, 111, rfl⟩
abbrev main_c_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S4000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x1_S4000x1_1_0_0_1_n_n_wf : DotDims.WF S4000x128 S128x1 S4000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S100000x128.size a
  hwx5_4 : ∀ i : grid5.Coords, EltTy.bits .f32 = 32 ∨ (Rect.block (s := S100000x128) S4000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S100000x1.size a
  hwx6_2 : ∀ i : grid6.Coords, EltTy.bits .f32 = 32 ∨ (Rect.block (s := S100000x1) S4000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x1.size a ≤ S100000x1.size a
  hwx7_0 : ∀ i : grid7.Coords, EltTy.bits .f32 = 32 ∨ (Rect.block (s := S100000x1) S4000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S100000x1.size a
  hwx7_1 : ∀ i : grid7.Coords, EltTy.bits .f32 = 32 ∨ (Rect.block (s := S100000x1) S4000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x1.size a ≤ S100000x1.size a
  hwx7_2 : ∀ i : grid7.Coords, EltTy.bits .f32 = 32 ∨ (Rect.block (s := S100000x1) S4000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x1.size a ≤ S100000x1.size a
  hwx7_4 : ∀ i : grid7.Coords, EltTy.bits .f32 = 32 ∨ (Rect.block (s := S100000x1) S4000x1.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S4000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S4000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S4000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v30) S4000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S4000x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .i1⟩
  | 21 => ⟨S100000, .f32⟩
  | 22 => ⟨S_, .f32⟩
  | 23 => ⟨S_, .f32⟩
  | 24 => ⟨S100000, .f32⟩
  | 25 => ⟨S100000, .f32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .f32⟩
  | 49 => ⟨S100000x128, .f32⟩
  | 50 => ⟨S1600000x1, .f32⟩
  | 51 => ⟨S1x1600000, .i32⟩
  | 52 => ⟨S1600000, .i32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x128, .f32⟩
  | 63 => ⟨S1600000x128, .f32⟩
  | 64 => ⟨S1x1600000, .i32⟩
  | 65 => ⟨S1600000, .i32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S1600000x1, .f32⟩
  | 82 => ⟨S1x1600000, .i32⟩
  | 83 => ⟨S1600000, .i32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S1600000x128, .f32⟩
  | 94 => ⟨S1600000x128, .f32⟩
  | 95 => ⟨S1x1600000, .i32⟩
  | 96 => ⟨S1600000, .i32⟩
  | 97 => ⟨S_, .f32⟩
  | 98 => ⟨S100000x128, .f32⟩
  | 99 => ⟨S1600000x1, .i32⟩
  | 100 => ⟨S100000x128, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S1600000x1, .f32⟩
  | 113 => ⟨S1x1600000, .i32⟩
  | 114 => ⟨S1600000, .i32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S1600000x128, .f32⟩
  | 125 => ⟨S1600000x128, .f32⟩
  | 126 => ⟨S1x1600000, .i32⟩
  | 127 => ⟨S1600000, .i32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S100000x1, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x1, .f32⟩
  | 15 => ⟨S1600000x1, .f32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x1, .f32⟩
  | 27 => ⟨S1600000x1, .f32⟩
  | 28 => ⟨S1x1600000, .i32⟩
  | 29 => ⟨S1600000, .i32⟩
  | 30 => ⟨S_, .f32⟩
  | 31 => ⟨S100000x1, .f32⟩
  | 32 => ⟨S1600000x1, .i32⟩
  | 33 => ⟨S100000x1, .f32⟩
  | 34 => ⟨S100000x1, .f32⟩
  | 35 => ⟨S100000x1, .f32⟩
  | 36 => ⟨S100000x1, .f32⟩
  | 37 => ⟨S1x1, .f32⟩
  | 38 => ⟨S100000x1, .f32⟩
  | 39 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_9 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call2_cst : Ref sig .tc := ⟨.hbm, 108, rfl⟩
abbrev main_call2_v0 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_12 : Ref sig .tc := ⟨.hbm, 115, rfl⟩
abbrev main_v86 : Ref sig .tc := ⟨.hbm, 116, rfl⟩
abbrev main_v87 : Ref sig .tc := ⟨.hbm, 117, rfl⟩
abbrev main_c_13 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_call3_cst : Ref sig .tc := ⟨.hbm, 139, rfl⟩
abbrev main_call3_v0 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_15 : Ref sig .tc := ⟨.hbm, 146, rfl⟩
abbrev main_v112 : Ref sig .tc := ⟨.hbm, 147, rfl⟩
abbrev main_v113 : Ref sig .tc := ⟨.hbm, 148, rfl⟩
abbrev main_c_16 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_17 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  slices_S2x1600000_S1x1600000_0_0 : S2x1600000.Slices ![0, 0] S1x1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.Keep.lean ====
/-
  The buffers the kernel's program leaves alone.  The run of @main is a fold over fifteen segments: seven stretches
  of host operations and eight kernel launches.  The contents at the boundary before the first launch are
  `W3`; every later boundary `Wk` differs from the one before it only at the buffers the segment between them
  writes: a host stretch writes the result buffers of its operations, a launch writes its one output array.
  This module names those written buffers and proves, for every boundary, that a buffer outside the
  written set still holds what it held at `W3`.
-/
import proofs.«175810_j32117765439962_1_alg».proof.Proof.Gen.KernelIdeal.Frame

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each later host stretch writes -/

/-- The result buffers of the stretch between the first product and the first combine. -/
abbrev written1 : List (Ref sig .tc) :=
  [main_v32, main_c_6, main_v33, main_v34, main_c_7, main_v35, main_v36, main_v37, main_v38, main_v39, main_v40, main_v41,
   main_cst_8, main_v42, main_v43, main_v44, main_v45]
/-- The result buffers of the stretch between the second product and the second combine. -/
abbrev written3 : List (Ref sig .tc) :=
  [main_v48, main_c_9, main_v49, main_v50, main_c_10, main_v51, main_v52, main_v53, main_v54, main_v55, main_v56, main_v57,
   main_cst_11, main_v58, main_v59, main_v60, main_v61]
/-- The result buffers of the stretch between the third product and the third combine. -/
abbrev written5 : List (Ref sig .tc) :=
  [main_v64, main_c_12, main_v65, main_v66, main_c_13, main_v67, main_v68, main_v69, main_v70, main_v71, main_v72, main_v73,
   main_cst_14, main_v74, main_v75, main_v76, main_v77]
/-- The result buffers of the stretch between the last product and the last combine. -/
abbrev written7 : List (Ref sig .tc) :=
  [main_v80, main_c_15, main_v81, main_v82, main_c_16, main_v83, main_v84, main_v85, main_v86, main_v87, main_v88,
   main_cst_17, main_v89, main_v90, main_v91, main_v92]

theorem writes1 : (hostOps1 : List (HloOp τ sig (Elt F))).Forall fun op => op.writes ⊆ (written1.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
theorem writes3 : (hostOps3 : List (HloOp τ sig (Elt F))).Forall fun op => op.writes ⊆ (written3.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
theorem writes5 : (hostOps5 : List (HloOp τ sig (Elt F))).Forall fun op => op.writes ⊆ (written5.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
theorem writes7 : (hostOps7 : List (HloOp τ sig (Elt F))).Forall fun op => op.writes ⊆ (written7.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))

/-! ## One segment at a time -/

/-- A host stretch leaves a buffer it does not write. -/
theorem host1 (c : Dev nD) (r : Ref sig .tc) (h : r ∉ written1) : W5 m ρ c (Proc.devRef .tc r) = W4 m ρ c (Proc.devRef .tc r) :=
  StableHlo.after_of_writes_sub hostOps1 _ writes1 h
theorem host3 (c : Dev nD) (r : Ref sig .tc) (h : r ∉ written3) : W8 m ρ c (Proc.devRef .tc r) = W7 m ρ c (Proc.devRef .tc r) :=
  StableHlo.after_of_writes_sub hostOps3 _ writes3 h
theorem host5 (c : Dev nD) (r : Ref sig .tc) (h : r ∉ written5) : W11 m ρ c (Proc.devRef .tc r) = W10 m ρ c (Proc.devRef .tc r) :=
  StableHlo.after_of_writes_sub hostOps5 _ writes5 h
theorem host7 (c : Dev nD) (r : Ref sig .tc) (h : r ∉ written7) : W14 m ρ c (Proc.devRef .tc r) = W13 m ρ c (Proc.devRef .tc r) :=
  StableHlo.after_of_writes_sub hostOps7 _ writes7 h

/-- A launch leaves every buffer but its output array: an input window's array is read, never written, and a
    buffer that is no window's array is not touched. -/
theorem launch0 (c : Dev nD) (r : Ref sig .tc) (h : r ≠ Pipeline.arrRef spec0 2) :
    W4 m ρ c (Proc.devRef .tc r) = W3 m ρ c (Proc.devRef .tc r) := by
  by_cases h0 : r = Pipeline.arrRef spec0 0
  · subst h0; exact (W4_arr m ρ c 0).trans (((dat0 (V3 m ρ) c).arrAt_in 0 rfl _).trans (A_eq0 (V3 m ρ) c 0))
  by_cases h1 : r = Pipeline.arrRef spec0 1
  · subst h1; exact (W4_arr m ρ c 1).trans (((dat0 (V3 m ρ) c).arrAt_in 1 rfl _).trans (A_eq0 (V3 m ρ) c 1))
  refine W4_of_ne m ρ c r (fun w e => ?_)
  subst e
  match w with
  | ⟨0, _⟩ => exact h0 rfl
  | ⟨1, _⟩ => exact h1 rfl
  | ⟨2, _⟩ => exact h rfl
theorem launch1 (c : Dev nD) (r : Ref sig .tc) (h : r ≠ Pipeline.arrRef spec1 4) :
    W6 m ρ c (Proc.devRef .tc r) = W5 m ρ c (Proc.devRef .tc r) := by
  by_cases h0 : r = Pipeline.arrRef spec1 0
  · subst h0; exact (W6_arr m ρ c 0).trans (((dat1 (V5 m ρ) c).arrAt_in 0 rfl _).trans (A_eq1 (V5 m ρ) c 0))
  by_cases h1 : r = Pipeline.arrRef spec1 1
  · subst h1; exact (W6_arr m ρ c 1).trans (((dat1 (V5 m ρ) c).arrAt_in 1 rfl _).trans (A_eq1 (V5 m ρ) c 1))
  by_cases h2 : r = Pipeline.arrRef spec1 2
  · subst h2; exact (W6_arr m ρ c 2).trans (((dat1 (V5 m ρ) c).arrAt_in 2 rfl _).trans (A_eq1 (V5 m ρ) c 2))
  by_cases h3 : r = Pipeline.arrRef spec1 3
  · subst h3; exact (W6_arr m ρ c 3).trans (((dat1 (V5 m ρ) c).arrAt_in 3 rfl _).trans (A_eq1 (V5 m ρ) c 3))
  refine W6_of_ne m ρ c r (fun w e => ?_)
  subst e
  match w with
  | ⟨0, _⟩ => exact h0 rfl
  | ⟨1, _⟩ => exact h1 rfl
  | ⟨2, _⟩ => exact h2 rfl
  | ⟨3, _⟩ => exact h3 rfl
  | ⟨4, _⟩ => exact h rfl
theorem launch2 (c : Dev nD) (r : Ref sig .tc) (h : r ≠ Pipeline.arrRef spec2 2) :
    W7 m ρ c (Proc.devRef .tc r) = W6 m ρ c (Proc.devRef .tc r) := by
  by_cases h0 : r = Pipeline.arrRef spec2 0
  · subst h0; exact (W7_arr m ρ c 0).trans (((dat2 (V6 m ρ) c).arrAt_in 0 rfl _).trans (A_eq2 (V6 m ρ) c 0))
  by_cases h1 : r = Pipeline.arrRef spec2 1
  · subst h1; exact (W7_arr m ρ c 1).trans (((dat2 (V6 m ρ) c).arrAt_in 1 rfl _).trans (A_eq2 (V6 m ρ) c 1))
  refine W7_of_ne m ρ c r (fun w e => ?_)
  subst e
  match w with
  | ⟨0, _⟩ => exact h0 rfl
  | ⟨1, _⟩ => exact h1 rfl
  | ⟨2, _⟩ => exact h rfl
theorem launch3 (c : Dev nD) (r : Ref sig .tc) (h : r ≠ Pipeline.arrRef spec3 4) :
    W9 m ρ c (Proc.devRef .tc r) = W8 m ρ c (Proc.devRef .tc r) := by
  by_cases h0 : r = Pipeline.arrRef spec3 0
  · subst h0; exact (W9_arr m ρ c 0).trans (((dat3 (V8 m ρ) c).arrAt_in 0 rfl _).trans (A_eq3 (V8 m ρ) c 0))
  by_cases h1 : r = Pipeline.arrRef spec3 1
  · subst h1; exact (W9_arr m ρ c 1).trans (((dat3 (V8 m ρ) c).arrAt_in 1 rfl _).trans (A_eq3 (V8 m ρ) c 1))
  by_cases h2 : r = Pipeline.arrRef spec3 2
  · subst h2; exact (W9_arr m ρ c 2).trans (((dat3 (V8 m ρ) c).arrAt_in 2 rfl _).trans (A_eq3 (V8 m ρ) c 2))
  by_cases h3 : r = Pipeline.arrRef spec3 3
  · subst h3; exact (W9_arr m ρ c 3).trans (((dat3 (V8 m ρ) c).arrAt_in 3 rfl _).trans (A_eq3 (V8 m ρ) c 3))
  refine W9_of_ne m ρ c r (fun w e => ?_)
  subst e
  match w with
  | ⟨0, _⟩ => exact h0 rfl
  | ⟨1, _⟩ => exact h1 rfl
  | ⟨2, _⟩ => exact h2 rfl
  | ⟨3, _⟩ => exact h3 rfl
  | ⟨4, _⟩ => exact h rfl
theorem launch4 (c : Dev nD) (r : Ref sig .tc) (h : r ≠ Pipeline.arrRef spec4 2) :
    W10 m ρ c (Proc.devRef .tc r) = W9 m ρ c (Proc.devRef .tc r) := by
  by_cases h0 : r = Pipeline.arrRef spec4 0
  · subst h0; exact (W10_arr m ρ c 0).trans (((dat4 (V9 m ρ) c).arrAt_in 0 rfl _).trans (A_eq4 (V9 m ρ) c 0))
  by_cases h1 : r = Pipeline.arrRef spec4 1
  · subst h1; exact (W10_arr m ρ c 1).trans (((dat4 (V9 m ρ) c).arrAt_in 1 rfl _).trans (A_eq4 (V9 m ρ) c 1))
  refine W10_of_ne m ρ c r (fun w e => ?_)
  subst e
  match w with
  | ⟨0, _⟩ => exact h0 rfl
  | ⟨1, _⟩ => exact h1 rfl
  | ⟨2, _⟩ => exact h rfl
theorem launch5 (c : Dev nD) (r : Ref sig .tc) (h : r ≠ Pipeline.arrRef spec5 4) :
    W12 m ρ c (Proc.devRef .tc r) = W11 m ρ c (Proc.devRef .tc r) := by
  by_cases h0 : r = Pipeline.arrRef spec5 0
  · subst h0; exact (W12_arr m ρ c 0).trans (((dat5 (V11 m ρ) c).arrAt_in 0 rfl _).trans (A_eq5 (V11 m ρ) c 0))
  by_cases h1 : r = Pipeline.arrRef spec5 1
  · subst h1; exact (W12_arr m ρ c 1).trans (((dat5 (V11 m ρ) c).arrAt_in 1 rfl _).trans (A_eq5 (V11 m ρ) c 1))
  by_cases h2 : r = Pipeline.arrRef spec5 2
  · subst h2; exact (W12_arr m ρ c 2).trans (((dat5 (V11 m ρ) c).arrAt_in 2 rfl _).trans (A_eq5 (V11 m ρ) c 2))
  by_cases h3 : r = Pipeline.arrRef spec5 3
  · subst h3; exact (W12_arr m ρ c 3).trans (((dat5 (V11 m ρ) c).arrAt_in 3 rfl _).trans (A_eq5 (V11 m ρ) c 3))
  refine W12_of_ne m ρ c r (fun w e => ?_)
  subst e
  match w with
  | ⟨0, _⟩ => exact h0 rfl
  | ⟨1, _⟩ => exact h1 rfl
  | ⟨2, _⟩ => exact h2 rfl
  | ⟨3, _⟩ => exact h3 rfl
  | ⟨4, _⟩ => exact h rfl
theorem launch6 (c : Dev nD) (r : Ref sig .tc) (h : r ≠ Pipeline.arrRef spec6 2) :
    W13 m ρ c (Proc.devRef .tc r) = W12 m ρ c (Proc.devRef .tc r) := by
  by_cases h0 : r = Pipeline.arrRef spec6 0
  · subst h0; exact (W13_arr m ρ c 0).trans (((dat6 (V12 m ρ) c).arrAt_in 0 rfl _).trans (A_eq6 (V12 m ρ) c 0))
  by_cases h1 : r = Pipeline.arrRef spec6 1
  · subst h1; exact (W13_arr m ρ c 1).trans (((dat6 (V12 m ρ) c).arrAt_in 1 rfl _).trans (A_eq6 (V12 m ρ) c 1))
  refine W13_of_ne m ρ c r (fun w e => ?_)
  subst e
  match w with
  | ⟨0, _⟩ => exact h0 rfl
  | ⟨1, _⟩ => exact h1 rfl
  | ⟨2, _⟩ => exact h rfl
theorem launch7 (c : Dev nD) (r : Ref sig .tc) (h : r ≠ Pipeline.arrRef spec7 4) :
    W15 m ρ c (Proc.devRef .tc r) = W14 m ρ c (Proc.devRef .tc r) := by
  by_cases h0 : r = Pipeline.arrRef spec7 0
  · subst h0; exact (W15_arr m ρ c 0).trans (((dat7 (V14 m ρ) c).arrAt_in 0 rfl _).trans (A_eq7 (V14 m ρ) c 0))
  by_cases h1 : r = Pipeline.arrRef spec7 1
  · subst h1; exact (W15_arr m ρ c 1).trans (((dat7 (V14 m ρ) c).arrAt_in 1 rfl _).trans (A_eq7 (V14 m ρ) c 1))
  by_cases h2 : r = Pipeline.arrRef spec7 2
  · subst h2; exact (W15_arr m ρ c 2).trans (((dat7 (V14 m ρ) c).arrAt_in 2 rfl _).trans (A_eq7 (V14 m ρ) c 2))
  by_cases h3 : r = Pipeline.arrRef spec7 3
  · subst h3; exact (W15_arr m ρ c 3).trans (((dat7 (V14 m ρ) c).arrAt_in 3 rfl _).trans (A_eq7 (V14 m ρ) c 3))
  refine W15_of_ne m ρ c r (fun w e => ?_)
  subst e
  match w with
  | ⟨0, _⟩ => exact h0 rfl
  | ⟨1, _⟩ => exact h1 rfl
  | ⟨2, _⟩ => exact h2 rfl
  | ⟨3, _⟩ => exact h3 rfl
  | ⟨4, _⟩ => exact h rfl

/-! ## From the first launch on -/

/-- Every buffer written from the first launch on: the launches' outputs and the later stretches' results. -/
abbrev late : List (Ref sig .tc) :=
  main_v31 :: (written1 ++ main_v46 :: main_v47 :: (written3 ++ main_v62 :: main_v63 :: (written5 ++ main_v78 :: main_v79 :: (written7 ++ [main_v93]))))

theorem sub1 : ∀ a ∈ written1, a ∈ late := by decide
theorem sub3 : ∀ a ∈ written3, a ∈ late := by decide
theorem sub5 : ∀ a ∈ written5, a ∈ late := by decide
theorem sub7 : ∀ a ∈ written7, a ∈ late := by decide

theorem ne_of_notMem {r a : Ref sig .tc} {L : List (Ref sig .tc)} (h : r ∉ L) (ha : a ∈ L) : r ≠ a := fun e => h (e ▸ ha)

/-- A buffer none of them writes holds at every later boundary what it held before the first launch. -/
theorem keep4 (c : Dev nD) (r : Ref sig .tc) (h : r ∉ late) : W4 m ρ c (Proc.devRef .tc r) = W3 m ρ c (Proc.devRef .tc r) :=
  launch0 m ρ c r (ne_of_notMem h (by decide))
theorem keep5 (c : Dev nD) (r : Ref sig .tc) (h : r ∉ late) : W5 m ρ c (Proc.devRef .tc r) = W3 m ρ c (Proc.devRef .tc r) :=
  (host1 m ρ c r fun hm => h (sub1 r hm)).trans (keep4 m ρ c r h)
theorem keep6 (c : Dev nD) (r : Ref sig .tc) (h : r ∉ late) : W6 m ρ c (Proc.devRef .tc r) = W3 m ρ c (Proc.devRef .tc r) :=
  (launch1 m ρ c r (ne_of_notMem h (by decide))).trans (keep5 m ρ c r h)
theorem keep7 (c : Dev nD) (r : Ref sig .tc) (h : r ∉ late) : W7 m ρ c (Proc.devRef .tc r) = W3 m ρ c (Proc.devRef .tc r) :=
  (launch2 m ρ c r (ne_of_notMem h (by decide))).trans (keep6 m ρ c r h)
theorem keep8 (c : Dev nD) (r : Ref sig .tc) (h : r ∉ late) : W8 m ρ c (Proc.devRef .tc r) = W3 m ρ c (Proc.devRef .tc r) :=
  (host3 m ρ c r fun hm => h (sub3 r hm)).trans (keep7 m ρ c r h)
theorem keep9 (c : Dev nD) (r : Ref sig .tc) (h : r ∉ late) : W9 m ρ c (Proc.devRef .tc r) = W3 m ρ c (Proc.devRef .tc r) :=
  (launch3 m ρ c r (ne_of_notMem h (by decide))).trans (keep8 m ρ c r h)
theorem keep10 (c : Dev nD) (r : Ref sig .tc) (h : r ∉ late) : W10 m ρ c (Proc.devRef .tc r) = W3 m ρ c (Proc.devRef .tc r) :=
  (launch4 m ρ c r (ne_of_notMem h (by decide))).trans (keep9 m ρ c r h)
theorem keep11 (c : Dev nD) (r : Ref sig .tc) (h : r ∉ late) : W11 m ρ c (Proc.devRef .tc r) = W3 m ρ c (Proc.devRef .tc r) :=
  (host5 m ρ c r fun hm => h (sub5 r hm)).trans (keep10 m ρ c r h)
theorem keep12 (c : Dev nD) (r : Ref sig .tc) (h : r ∉ late) : W12 m ρ c (Proc.devRef .tc r) = W3 m ρ c (Proc.devRef .tc r) :=
  (launch5 m ρ c r (ne_of_notMem h (by decide))).trans (keep11 m ρ c r h)
theorem keep13 (c : Dev nD) (r : Ref sig .tc) (h : r ∉ late) : W13 m ρ c (Proc.devRef .tc r) = W3 m ρ c (Proc.devRef .tc r) :=
  (launch6 m ρ c r (ne_of_notMem h (by decide))).trans (keep12 m ρ c r h)
theorem keep14 (c : Dev nD) (r : Ref sig .tc) (h : r ∉ late) : W14 m ρ c (Proc.devRef .tc r) = W3 m ρ c (Proc.devRef .tc r) :=
  (host7 m ρ c r fun hm => h (sub7 r hm)).trans (keep13 m ρ c r h)

end Cert.KernelIdeal.Fold

end
-- ==== Proof.Spec.lean ====
/-
  The function the kernel's program computes, written once.

  A graph convolution network of four layers on 100000 nodes and 1600000 weighted edges.  From the edge list and the
  edge weights: the degree of a node is one plus the sum of the weights of the edges arriving at it; `dinv` is its
  inverse square root (zero where the degree is not positive); an edge's coefficient `enorm` is its weight times
  `dinv` at both ends, and a node's own coefficient `snorm` is `dinv` squared.  A layer multiplies the node
  features by a weight matrix (`mm`), sums along the edges the coefficient times the product's row at the edge's
  source into the row of its destination (`agg`), and combines: the sum, plus the node's own coefficient times its
  own row, plus a bias row — clamped below at zero in the first three layers (`cbRelu`), left as is in the last (`cb`).
  The coefficients and the edge sums are the program's own host operations, stated for any reading of the floats;
  the product and the combine are stated entry by entry over the extended reals.
-/
import proofs.«175810_j32117765439962_1_alg».proof.Proof.Gen.KernelIdeal
import Idealize.ShloMosaic.Lib.ValueIdx

noncomputable section

namespace Cert.KernelIdeal.Spec

open Cert.KernelIdeal Cert.KernelIdeal.Facts₀ Idealize.ShloMosaic Idealize.ShloMosaic.ValueIdx
open scoped BigOperators

variable {F : FTy → Type} [FloatOps F]

/-- Row 0 of the edge list: each edge's source node. -/
def src (a1 : IVec S2x1600000 32) : IVec S1600000 32 :=
  shapeCast _ (extractStridedSlice S1x1600000 ![0, 0] a1 slices_S2x1600000_S1x1600000_0_0) shapeCasts_S1x1600000_S1600000

/-- Row 1 of the edge list: each edge's destination node. -/
def dst (a1 : IVec S2x1600000 32) : IVec S1600000 32 :=
  shapeCast _ (extractStridedSlice S1x1600000 ![1, 0] a1 slices_S2x1600000_S1x1600000_1_0) shapeCasts_S1x1600000_S1600000

/-- Node indices as a gather reads them, laid as a column: a negative index counts from the end. -/
def wrapCol (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- Node indices as a scatter reads them, laid as a column. -/
def rawCol (e : IVec S1600000 32) : IVec S1600000x1 32 :=
  broadcastInDim S1600000x1 ![0] bcast_S1600000_S1600000x1_0 e

/-- One plus the sum of the weights of the edges arriving at each node. -/
def deg (d : IVec S1600000 32) (a2 : FVec F S1600000 .f32) : FVec F S100000 .f32 :=
  addf (Host.scatterAdd scatter_S100000_S1600000x1_S1600000_n_0_0_1
      (broadcastInDim S100000 ![] bcast_S_S100000 (constant (F := F) S_ .f32 0x00000000#32)) (rawCol d) a2)
    (broadcastInDim S100000 ![] bcast_S_S100000 (constant (F := F) S_ .f32 0x3F800000#32))

/-- The inverse square root of the degree where it is positive, zero elsewhere. -/
def dinv (d : IVec S1600000 32) (a2 : FVec F S1600000 .f32) : FVec F S100000 .f32 :=
  select (cmpf .ogt (deg d a2) (broadcastInDim S100000 ![] bcast_S_S100000 (constant (F := F) S_ .f32 0x00000000#32)))
    (Host.rsqrt (deg d a2))
    (broadcastInDim S100000 ![] bcast_S_S100000 (id (constant (F := F) S_ .f32 0x00000000#32)))

/-- An edge's coefficient: `dinv` at its source, times its weight, times `dinv` at its destination. -/
def enorm (s d : IVec S1600000 32) (a2 : FVec F S1600000 .f32) : FVec F S1600000 .f32 :=
  mulf (mulf (Host.gather gather_S100000_S1600000x1_S1600000_n_0_n_n_0_1_1 (dinv d a2) (wrapCol s)) a2)
    (Host.gather gather_S100000_S1600000x1_S1600000_n_0_n_n_0_1_1 (dinv d a2) (wrapCol d))

/-- A node's own coefficient: `dinv` squared. -/
def snorm (d : IVec S1600000 32) (a2 : FVec F S1600000 .f32) : FVec F S100000 .f32 :=
  mulf (dinv d a2) (dinv d a2)

/-- The edge sums of a layer of width 128: at each node, the sum over the edges arriving there of the edge's
    coefficient times the row of `h` at the edge's source. -/
def agg (s d : IVec S1600000 32) (en : FVec F S1600000 .f32) (h : FVec F S100000x128 .f32) : FVec F S100000x128 .f32 :=
  Host.scatterAdd scatter_S100000x128_S1600000x1_S1600000x128_1_0_0_1
    (broadcastInDim S100000x128 ![] bcast_S_S100000x128 (constant (F := F) S_ .f32 0x00000000#32)) (rawCol d)
    (mulf (broadcastInDim S1600000x128 ![0, 1] bcast_S1600000x1_S1600000x128_0_1
        (broadcastInDim S1600000x1 ![0] bcast_S1600000_S1600000x1_0 en))
      (Host.gather gather_S100000x128_S1600000x1_S1600000x128_1_0_n_n_0_1_1128 h (wrapCol s)))

/-- The same for the last layer, of width 1. -/
def aggLast (s d : IVec S1600000 32) (en : FVec F S1600000 .f32) (h : FVec F S100000x1 .f32) : FVec F S100000x1 .f32 :=
  Host.scatterAdd scatter_S100000x1_S1600000x1_S1600000x1_1_0_0_1
    (broadcastInDim S100000x1 ![] bcast_S_S100000x1 (constant (F := F) S_ .f32 0x00000000#32)) (rawCol d)
    (mulf (broadcastInDim S1600000x1 ![0] bcast_S1600000_S1600000x1_0 en)
      (Host.gather gather_S100000x1_S1600000x1_S1600000x1_1_0_n_n_0_1_11 h (wrapCol s)))

/-- A matrix product, entry by entry. -/
def mm {M K N : Nat} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The combine step: the edge sum, plus the node's own coefficient times its own row, plus the bias row. -/
def cb {M N : Nat} (a h : FVec Ideal ⟨2, ![M, N]⟩ .f32) (sn : FVec Ideal ⟨2, ![M, 1]⟩ .f32) (b : FVec Ideal ⟨2, ![1, N]⟩ .f32) :
    FVec Ideal ⟨2, ![M, N]⟩ .f32 :=
  fun i => (a i + sn (ix2 (i 0) (0 : Fin 1)) * h i) + b (ix2 (0 : Fin 1) (i 1))

/-- The combine step clamped below at zero. -/
def cbRelu {M N : Nat} (a h : FVec Ideal ⟨2, ![M, N]⟩ .f32) (sn : FVec Ideal ⟨2, ![M, 1]⟩ .f32) (b : FVec Ideal ⟨2, ![1, N]⟩ .f32) :
    FVec Ideal ⟨2, ![M, N]⟩ .f32 :=
  fun i => max (cb a h sn b i) (Ideal.ofBits .f32 0x00000000#32)

/-- The node coefficients as a column. -/
def sncol (d : IVec S1600000 32) (a2 : FVec F S1600000 .f32) : FVec F S100000x1 .f32 :=
  shapeCast _ (snorm d a2) shapeCasts_S100000_S100000x1

/-- One of the first three layers: the product, the edge sums of the product, and the clamped combine. -/
def layer (s d : IVec S1600000 32) (en : FVec Ideal S1600000 .f32) (sc : FVec Ideal S100000x1 .f32)
    (x : FVec Ideal S100000x128 .f32) (w : FVec Ideal S128x128 .f32) (b : FVec Ideal S128 .f32) : FVec Ideal S100000x128 .f32 :=
  cbRelu (M := 100000) (N := 128) (agg s d en (mm (M := 100000) (K := 128) (N := 128) x w)) (mm (M := 100000) (K := 128) (N := 128) x w) sc
    (shapeCast _ b shapeCasts_S128_S1x128)

/-- The last layer, of width 1, not clamped. -/
def lastLayer (s d : IVec S1600000 32) (en : FVec Ideal S1600000 .f32) (sc : FVec Ideal S100000x1 .f32)
    (x : FVec Ideal S100000x128 .f32) (w : FVec Ideal S128x1 .f32) (b : FVec Ideal S1 .f32) : FVec Ideal S100000x1 .f32 :=
  cb (M := 100000) (N := 1) (aggLast s d en (mm (M := 100000) (K := 128) (N := 1) x w)) (mm (M := 100000) (K := 128) (N := 1) x w) sc
    (shapeCast _ b shapeCasts_S1_S1x1)

/-- The network: four layers over one set of edge and node coefficients; the middle weights are used twice. -/
def net (a0 : FVec Ideal S100000x128 .f32) (a1 : IVec S2x1600000 32) (a2 : FVec Ideal S1600000 .f32)
    (a3 : FVec Ideal S128x128 .f32) (a4 : FVec Ideal S128 .f32) (a5 : FVec Ideal S128x128 .f32) (a6 : FVec Ideal S128 .f32)
    (a7 : FVec Ideal S128x1 .f32) (a8 : FVec Ideal S1 .f32) : FVec Ideal S100000x1 .f32 :=
  lastLayer (src a1) (dst a1) (enorm (src a1) (dst a1) a2) (sncol (dst a1) a2)
    (layer (src a1) (dst a1) (enorm (src a1) (dst a1) a2) (sncol (dst a1) a2)
      (layer (src a1) (dst a1) (enorm (src a1) (dst a1) a2) (sncol (dst a1) a2)
        (layer (src a1) (dst a1) (enorm (src a1) (dst a1) a2) (sncol (dst a1) a2) a0 a3 a4) a5 a6) a5 a6) a7 a8

end Cert.KernelIdeal.Spec

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.MmBlock.lean ====
/-
  A block of a matrix product.  When a block `x0` of rows of the left factor `X` (row `p` of the block is row
  `r p` of `X`) is multiplied by the whole right factor, entry (p, q) of the block product — formed from the two
  factors narrowed to sixteen bits, which changes nothing on the extended reals, into a zero accumulator — is
  entry (r p, q) of the product of the whole matrices.  The same sum is what the host's product computes.
-/
import proofs.«175810_j32117765439962_1_alg».proof.Proof.Spec
import proofs.«175810_j32117765439962_1_alg».proof.Proof.LibPlainDot

noncomputable section

namespace Cert.KernelIdeal.Spec

open Idealize.ShloMosaic Idealize.ShloMosaic.ValueIdx
open scoped BigOperators

/-- Entry (r p, q) of the whole product from the block product's entry (p, q). -/
theorem mm_block {M K N R : Nat} (X : FVec Ideal ⟨2, ![R, K]⟩ .f32) (Wt : FVec Ideal ⟨2, ![K, N]⟩ .f32)
    (x0 : FVec Ideal ⟨2, ![M, K]⟩ .f32) (x1 : FVec Ideal ⟨2, ![K, N]⟩ .f32) (r : Fin M → Fin R)
    (hx0 : ∀ (p : Fin M) (k : Fin K), x0 (ix2 p k) = X (ix2 (r p) k)) (hx1 : x1 = Wt)
    (h16 : FTy.bits .bf16 < FTy.bits .f32) (p : Fin M) (q : Fin N) :
    matmul (DotDims.plain M K N) none (truncf .bf16 x0 h16) (truncf .bf16 x1 h16)
        (constant (F := Ideal) ⟨2, ![M, N]⟩ .f32 0x00000000#32) (ix2 p q)
      = mm X Wt (ix2 (r p) q) := by
  rw [Cert.PlainDot.matmul_zero_apply]
  subst hx1
  show ∑ k : Fin K, x0 (ix2 p k) * x1 (ix2 k q) = ∑ k : Fin K, X (ix2 (r p) k) * x1 (ix2 k q)
  exact Finset.sum_congr rfl fun k _ => by rw [hx0]

/-- The host's product of whole matrices, entry by entry. -/
theorem dotGeneral_eq_mm {M K N : Nat} (x : FVec Ideal ⟨2, ![M, K]⟩ .f32) (w : FVec Ideal ⟨2, ![K, N]⟩ .f32) :
    Host.dotGeneral (DotDims.plain M K N) none x w = mm x w := by
  funext i
  obtain ⟨p, q, rfl⟩ : ∃ (p : Fin M) (q : Fin N), i = ix2 p q := ⟨i 0, i 1, eq_ix2 i⟩
  show FloatOps.dotGeneral (DotDims.plain M K N) none _ x w (ix2 p q) = ∑ k : Fin K, x (ix2 p k) * w (ix2 k q)
  rw [Ideal.dotGeneral_apply,
    ← Equiv.sum_comp (contrEquiv1 (DotDims.plain M K N) K (Cert.PlainDot.contr_rank M K N) (Cert.PlainDot.contr_size M K N)).symm]
  refine Finset.sum_congr rfl fun k _ => ?_
  rw [Cert.PlainDot.lhsIdx_eq, Cert.PlainDot.rhsIdx_eq]

end Cert.KernelIdeal.Spec

end
-- ==== Proof.Launch0.lean ====
/-
  Launch 0 multiplies a matrix of 100000 rows (the layer's input) by the layer's weight matrix, 4000 rows at a grid
  point, 25 points.  Point t loads rows 4000 t … 4000 t + 3999 of the left matrix and the whole right matrix and
  writes the same rows of the product; the 25 row blocks tile the output, so after the launch the output array is the
  whole product.
-/
import proofs.«175810_j32117765439962_1_alg».proof.Proof.Gen.KernelIdeal.Frame
import proofs.«175810_j32117765439962_1_alg».proof.Proof.MmBlock
import Idealize.ShloMosaic.Lib.Pipeline.Value

set_option maxRecDepth 16384

noncomputable section

namespace Cert.KernelIdeal.Launch0

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at every grid point: the left matrix and the product move down the rows
    with the point, the right matrix stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic at an entry of the block. -/
theorem pay (X : FVec Ideal S100000x128 .f32) (Wt : FVec Ideal S128x128 .f32)
    (x0 : Vec Ideal S4000x128 .f32) (x1 : Vec Ideal S128x128 .f32) (r : Fin 4000 → Fin 100000)
    (hx0 : ∀ (p : Fin 4000) (k : Fin 128), x0 (ix2 p k) = X (ix2 (r p) k)) (hx1 : x1 = Wt) (p : Fin 4000) (q : Fin 128) :
    k0_pay1 x0 x1 (ix2 p q) = mm (M := 100000) (K := 128) (N := 128) X Wt (ix2 (r p) q) := by
  unfold k0_pay1
  exact mm_block (M := 4000) (K := 128) (N := 128) (R := 100000) X Wt x0 x1 r hx0 hx1 _ p q

/-- What point t writes back is block t of the whole product. -/
theorem flushed (c : Dev nD) (t : Fin cfg0.N) :
    (dat0 V c).flushed 2 t = ((cfg0.win 2).blk t).view.read (Elt Ideal)
      (mm (M := 100000) (K := 128) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e00, e01, e10, e11, e20, e21⟩ := idx t
  have ht : t.val < 25 := t.isLt
  funext j
  obtain ⟨p, q, rfl⟩ : ∃ (p : Fin 4000) (q : Fin 128), j = ix2 p q := ⟨j 0, j 1, eq_ix2 j⟩
  refine (pay (V c main_arg0) (V c main_arg3) (iblk0 V c 0 t) (iblk0 V c 1 t)
    (fun p => ⟨t.val * 4000 + p.val, by have := p.isLt; omega⟩) ?_ ?_ p q).trans ?_
  · intro p k
    show V c main_arg0 (((cfg0.win 0).blk t).view.emb (ix2 p k)) = V c main_arg0 (ix2 _ k)
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show mm (M := 100000) (K := 128) (N := 128) (V c main_arg0) (V c main_arg3) (ix2 _ q)
      = mm (M := 100000) (K := 128) (N := 128) (V c main_arg0) (V c main_arg3) (((cfg0.win 2).blk t).view.emb (ix2 p q))
    refine congrArg _ (funext fun a => Fin.ext ?_)
    match a with
    | ⟨0, _⟩ => show t.val * 4000 + p.val = win0_2.index t (0 : Fin 2) * 4000 + 1 * p.val; omega
    | ⟨1, _⟩ => show q.val = win0_2.index t (1 : Fin 2) * 128 + 1 * q.val; omega

/-- An index of the output array is in point t's block iff each coordinate is in the block's range. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v31).slice (win0_2.rect t)).set ↔ _
  rw [View.set_slice_whole, Rect.mem_set_unit]
  exact Iff.rfl

/-- Row r of the output is in the block of point r / 4000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨e00, e01, e10, e11, e20, e21⟩ := idx t
  have e20' : win0_2.index t (0 : Fin 2) = (i 0).val / 4000 := e20
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the launch the output array holds the whole product of the arrays the launch found. -/
theorem value (c : Dev nD) :
    (dat0 V c).arrAt 2 cfg0.N = mm (M := 100000) (K := 128) (N := 128) (V c main_arg0) (V c main_arg3) :=
  (dat0 V c).arrAt_eq_of_cover 2 _ (fun t _ => flushed V c t) cover

end Cert.KernelIdeal.Launch0

end
-- ==== Proof.LibColBroadcast.lean ====
import Idealize.ShloMosaic.Lib.ValueIdx
import Idealize.ShloMosaic.Lib.ValueLayout
import Idealize.ShloMosaic.Lib.Pipeline.Value

/-!
# A column repeated across the columns, as a vector broadcast

A vector broadcast of an [a, 1] column to [a, b], read at entry (p, c), is the column's entry in row p.
-/

namespace Cert.ColBroadcast

open Idealize.ShloMosaic Idealize.ShloMosaic.ValueIdx

variable {α : Type}

/-- One column repeated across b columns by `broadcastTo`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColBroadcast
-- ==== Proof.Launch1.lean ====
/-
  Launch 1 combines, 4000 rows at a grid point, 25 points: at point t it loads rows 4000 t … 4000 t + 3999 of the
  edge sums, of the layer's product and of the column of node coefficients, and the whole bias row, and writes the
  same rows of: edge sum + coefficient × product + bias, clamped below at zero.  The 25 row blocks tile the output.
-/
import proofs.«175810_j32117765439962_1_alg».proof.Proof.Gen.KernelIdeal.Frame
import proofs.«175810_j32117765439962_1_alg».proof.Proof.Spec
import proofs.«175810_j32117765439962_1_alg».proof.Proof.LibColBroadcast
import Idealize.ShloMosaic.Lib.Pipeline.Value
import Idealize.ShloMosaic.Lib.ValueLayout

set_option maxRecDepth 16384

noncomputable section

namespace Cert.KernelIdeal.Launch1

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at every grid point: the three row-blocked inputs and the output move down
    the rows with the point, the bias row stays. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's arithmetic at an entry of the block. -/
theorem pay (A H : FVec Ideal S100000x128 .f32) (Sn : FVec Ideal S100000x1 .f32) (B : FVec Ideal S1x128 .f32)
    (x0 x1 : Vec Ideal S4000x128 .f32) (x2 : Vec Ideal S4000x1 .f32) (x3 : Vec Ideal S1x128 .f32) (r : Fin 4000 → Fin 100000)
    (h0 : ∀ (p : Fin 4000) (q : Fin 128), x0 (ix2 p q) = A (ix2 (r p) q))
    (h1 : ∀ (p : Fin 4000) (q : Fin 128), x1 (ix2 p q) = H (ix2 (r p) q))
    (h2 : ∀ (p : Fin 4000) (u : Fin 1), x2 (ix2 p u) = Sn (ix2 (r p) u)) (h3 : x3 = B) (p : Fin 4000) (q : Fin 128) :
    k1_pay1 x0 x2 x1 x3 (ix2 p q) = cbRelu (M := 100000) (N := 128) A H Sn B (ix2 (r p) q) := by
  unfold k1_pay1
  rw [shapeCast_self x0, shapeCast_self x1, shapeCast_self x2, shapeCast_self x3]
  show max ((x0 (ix2 p q) + broadcastTo S4000x128 x2 Facts₀.broadcasts_S4000x1_S4000x128 (ix2 p q) * x1 (ix2 p q))
      + broadcastTo S4000x128 x3 Facts₀.broadcasts_S1x128_S4000x128 (ix2 p q)) (Ideal.ofBits .f32 0x00000000#32) = _
  rw [Cert.ColBroadcast.broadcastTo_a1_ab_apply (a := 4000) (b := 128) x2, broadcastTo_1b_ab_apply (a := 4000) (b := 128) x3,
    h0, h1, h2, h3]
  rfl

/-- What point t writes back is block t of the combined array. -/
theorem flushed (c : Dev nD) (t : Fin cfg1.N) :
    (dat1 V c).flushed 4 t = ((cfg1.win 4).blk t).view.read (Elt Ideal)
      (cbRelu (M := 100000) (N := 128) (V c main_v44) (V c main_v31) (V c main_v30) (V c main_v45)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41⟩ := idx t
  have ht : t.val < 25 := t.isLt
  funext j
  obtain ⟨p, q, rfl⟩ : ∃ (p : Fin 4000) (q : Fin 128), j = ix2 p q := ⟨j 0, j 1, eq_ix2 j⟩
  refine (pay (V c main_v44) (V c main_v31) (V c main_v30) (V c main_v45) (iblk1 V c 0 t) (iblk1 V c 1 t) (iblk1 V c 2 t) (iblk1 V c 3 t)
    (fun p => ⟨t.val * 4000 + p.val, by have := p.isLt; omega⟩) ?_ ?_ ?_ ?_ p q).trans ?_
  · intro p k
    show V c main_v44 (((cfg1.win 0).blk t).view.emb (ix2 p k)) = V c main_v44 (ix2 _ k)
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  · intro p k
    show V c main_v31 (((cfg1.win 1).blk t).view.emb (ix2 p k)) = V c main_v31 (ix2 _ k)
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  · intro p u
    show V c main_v30 (((cfg1.win 2).blk t).view.emb (ix2 p u)) = V c main_v30 (ix2 _ u)
    refine congrArg _ (funext fun a => Fin.ext ?_)
    match a with
    | ⟨0, _⟩ => show win1_2.index t (0 : Fin 2) * 4000 + 1 * p.val = t.val * 4000 + p.val; omega
    | ⟨1, _⟩ => show win1_2.index t (1 : Fin 2) * 1 + 1 * u.val = u.val; omega
  · funext y
    show V c main_v45 (((cfg1.win 3).blk t).view.emb y) = V c main_v45 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show cbRelu (M := 100000) (N := 128) (V c main_v44) (V c main_v31) (V c main_v30) (V c main_v45) (ix2 _ q)
      = cbRelu (M := 100000) (N := 128) (V c main_v44) (V c main_v31) (V c main_v30) (V c main_v45) (((cfg1.win 4).blk t).view.emb (ix2 p q))
    refine congrArg _ (funext fun a => Fin.ext ?_)
    match a with
    | ⟨0, _⟩ => show t.val * 4000 + p.val = win1_4.index t (0 : Fin 2) * 4000 + 1 * p.val; omega
    | ⟨1, _⟩ => show q.val = win1_4.index t (1 : Fin 2) * 128 + 1 * q.val; omega

/-- An index of the output array is in point t's block iff each coordinate is in the block's range. -/
theorem mem_blk (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v46).slice (win1_4.rect t)).set ↔ _
  rw [View.set_slice_whole, Rect.mem_set_unit]
  exact Iff.rfl

/-- Row r of the output is in the block of point r / 4000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 4000, by show (i 0).val / 4000 < 25; omega⟩
  obtain ⟨e00, e01, e10, e11, e20, e21, e30, e31, e40, e41⟩ := idx t
  have e40' : win1_4.index t (0 : Fin 2) = (i 0).val / 4000 := e40
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- After the launch the output array holds the combined array of the arrays the launch found. -/
theorem value (c : Dev nD) :
    (dat1 V c).arrAt 4 cfg1.N = cbRelu (M := 100000) (N := 128) (V c main_v44) (V c main_v31) (V c main_v30) (V c main_v45) :=
  (dat1 V c).arrAt_eq_of_cover 4 _ (fun t _ => flushed V c t) cover

end Cert.KernelIdeal.Launch1

end
-- ==== Proof.Launch2.lean ====
/-
  Launch 2 multiplies a matrix of 100000 rows (the layer's input) by the layer's weight matrix, 4000 rows at a grid
  point, 25 points.  Point t loads rows 4000 t … 4000 t + 3999 of the left matrix and the whole right matrix and
  writes the same rows of the product; the 25 row blocks tile the output, so after the launch the output array is the
  whole product.
-/
import proofs.«175810_j32117765439962_1_alg».proof.Proof.Gen.KernelIdeal.Frame
import proofs.«175810_j32117765439962_1_alg».proof.Proof.MmBlock
import Idealize.ShloMosaic.Lib.Pipeline.Value

set_option maxRecDepth 16384

noncomputable section

namespace Cert.KernelIdeal.Launch2

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at every grid point: the left matrix and the product move down the rows
    with the point, the right matrix stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's arithmetic at an entry of the block. -/
theorem pay (X : FVec Ideal S100000x128 .f32) (Wt : FVec Ideal S128x128 .f32)
    (x0 : Vec Ideal S4000x128 .f32) (x1 : Vec Ideal S128x128 .f32) (r : Fin 4000 → Fin 100000)
    (hx0 : ∀ (p : Fin 4000) (k : Fin 128), x0 (ix2 p k) = X (ix2 (r p) k)) (hx1 : x1 = Wt) (p : Fin 4000) (q : Fin 128) :
    k2_pay1 x0 x1 (ix2 p q) = mm (M := 100000) (K := 128) (N := 128) X Wt (ix2 (r p) q) := by
  unfold k2_pay1
  rw [shapeCast_self x0]
  exact mm_block (M := 4000) (K := 128) (N := 128) (R := 100000) X Wt x0 x1 r hx0 hx1 _ p q

/-- What point t writes back is block t of the whole product. -/
theorem flushed (c : Dev nD) (t : Fin cfg2.N) :
    (dat2 V c).flushed 2 t = ((cfg2.win 2).blk t).view.read (Elt Ideal)
      (mm (M := 100000) (K := 128) (N := 128) (V c main_v46) (V c main_arg5)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  obtain ⟨e00, e01, e10, e11, e20, e21⟩ := idx t
  have ht : t.val < 25 := t.isLt
  funext j
  obtain ⟨p, q, rfl⟩ : ∃ (p : Fin 4000) (q : Fin 128), j = ix2 p q := ⟨j 0, j 1, eq_ix2 j⟩
  refine (pay (V c main_v46) (V c main_arg5) (iblk2 V c 0 t) (iblk2 V c 1 t)
    (fun p => ⟨t.val * 4000 + p.val, by have := p.isLt; omega⟩) ?_ ?_ p q).trans ?_
  · intro p k
    show V c main_v46 (((cfg2.win 0).blk t).view.emb (ix2 p k)) = V c main_v46 (ix2 _ k)
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 128 + 1 * k.val = k.val; omega
  · funext y
    show V c main_arg5 (((cfg2.win 1).blk t).view.emb y) = V c main_arg5 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show mm (M := 100000) (K := 128) (N := 128) (V c main_v46) (V c main_arg5) (ix2 _ q)
      = mm (M := 100000) (K := 128) (N := 128) (V c main_v46) (V c main_arg5) (((cfg2.win 2).blk t).view.emb (ix2 p q))
    refine congrArg _ (funext fun a => Fin.ext ?_)
    match a with
    | ⟨0, _⟩ => show t.val * 4000 + p.val = win2_2.index t (0 : Fin 2) * 4000 + 1 * p.val; omega
    | ⟨1, _⟩ => show q.val = win2_2.index t (1 : Fin 2) * 128 + 1 * q.val; omega

/-- An index of the output array is in point t's block iff each coordinate is in the block's range. -/
theorem mem_blk (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v47).slice (win2_2.rect t)).set ↔ _
  rw [View.set_slice_whole, Rect.mem_set_unit]
  exact Iff.rfl

/-- Row r of the output is in the block of point r / 4000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 4000, by show (i 0).val / 4000 < 25; omega⟩
  obtain ⟨e00, e01, e10, e11, e20, e21⟩ := idx t
  have e20' : win2_2.index t (0 : Fin 2) = (i 0).val / 4000 := e20
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- After the launch the output array holds the whole product of the arrays the launch found. -/
theorem value (c : Dev nD) :
    (dat2 V c).arrAt 2 cfg2.N = mm (M := 100000) (K := 128) (N := 128) (V c main_v46) (V c main_arg5) :=
  (dat2 V c).arrAt_eq_of_cover 2 _ (fun t _ => flushed V c t) cover

end Cert.KernelIdeal.Launch2

end
-- ==== Proof.Launch3.lean ====
/-
  Launch 3 combines, 4000 rows at a grid point, 25 points: at point t it loads rows 4000 t … 4000 t + 3999 of the
  edge sums, of the layer's product and of the column of node coefficients, and the whole bias row, and writes the
  same rows of: edge sum + coefficient × product + bias, clamped below at zero.  The 25 row blocks tile the output.
-/
import proofs.«175810_j32117765439962_1_alg».proof.Proof.Gen.KernelIdeal.Frame
import proofs.«175810_j32117765439962_1_alg».proof.Proof.Spec
import proofs.«175810_j32117765439962_1_alg».proof.Proof.LibColBroadcast
import Idealize.ShloMosaic.Lib.Pipeline.Value
import Idealize.ShloMosaic.Lib.ValueLayout

set_option maxRecDepth 16384

noncomputable section

namespace Cert.KernelIdeal.Launch3

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at every grid point: the three row-blocked inputs and the output move down
    the rows with the point, the bias row stays. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's arithmetic at an entry of the block. -/
theorem pay (A H : FVec Ideal S100000x128 .f32) (Sn : FVec Ideal S100000x1 .f32) (B : FVec Ideal S1x128 .f32)
    (x0 x1 : Vec Ideal S4000x128 .f32) (x2 : Vec Ideal S4000x1 .f32) (x3 : Vec Ideal S1x128 .f32) (r : Fin 4000 → Fin 100000)
    (h0 : ∀ (p : Fin 4000) (q : Fin 128), x0 (ix2 p q) = A (ix2 (r p) q))
    (h1 : ∀ (p : Fin 4000) (q : Fin 128), x1 (ix2 p q) = H (ix2 (r p) q))
    (h2 : ∀ (p : Fin 4000) (u : Fin 1), x2 (ix2 p u) = Sn (ix2 (r p) u)) (h3 : x3 = B) (p : Fin 4000) (q : Fin 128) :
    k3_pay1 x0 x2 x1 x3 (ix2 p q) = cbRelu (M := 100000) (N := 128) A H Sn B (ix2 (r p) q) := by
  unfold k3_pay1
  rw [shapeCast_self x0, shapeCast_self x1, shapeCast_self x2, shapeCast_self x3]
  show max ((x0 (ix2 p q) + broadcastTo S4000x128 x2 Facts₀.broadcasts_S4000x1_S4000x128 (ix2 p q) * x1 (ix2 p q))
      + broadcastTo S4000x128 x3 Facts₀.broadcasts_S1x128_S4000x128 (ix2 p q)) (Ideal.ofBits .f32 0x00000000#32) = _
  rw [Cert.ColBroadcast.broadcastTo_a1_ab_apply (a := 4000) (b := 128) x2, broadcastTo_1b_ab_apply (a := 4000) (b := 128) x3,
    h0, h1, h2, h3]
  rfl

/-- What point t writes back is block t of the combined array. -/
theorem flushed (c : Dev nD) (t : Fin cfg3.N) :
    (dat3 V c).flushed 4 t = ((cfg3.win 4).blk t).view.read (Elt Ideal)
      (cbRelu (M := 100000) (N := 128) (V c main_v60) (V c main_v47) (V c main_v30) (V c main_v61)) := by
  show (cfg3.win 4).cut (grid3.coords t) ((dat3 V c).after 4 t) = _
  rw [after3_4]
  unfold out3_4
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41⟩ := idx t
  have ht : t.val < 25 := t.isLt
  funext j
  obtain ⟨p, q, rfl⟩ : ∃ (p : Fin 4000) (q : Fin 128), j = ix2 p q := ⟨j 0, j 1, eq_ix2 j⟩
  refine (pay (V c main_v60) (V c main_v47) (V c main_v30) (V c main_v61) (iblk3 V c 0 t) (iblk3 V c 1 t) (iblk3 V c 2 t) (iblk3 V c 3 t)
    (fun p => ⟨t.val * 4000 + p.val, by have := p.isLt; omega⟩) ?_ ?_ ?_ ?_ p q).trans ?_
  · intro p k
    show V c main_v60 (((cfg3.win 0).blk t).view.emb (ix2 p k)) = V c main_v60 (ix2 _ k)
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 128 + 1 * k.val = k.val; omega
  · intro p k
    show V c main_v47 (((cfg3.win 1).blk t).view.emb (ix2 p k)) = V c main_v47 (ix2 _ k)
    refine congrArg _ (funext fun a => Fin.ext ?_)
    match a with
    | ⟨0, _⟩ => show win3_1.index t (0 : Fin 2) * 4000 + 1 * p.val = t.val * 4000 + p.val; omega
    | ⟨1, _⟩ => show win3_1.index t (1 : Fin 2) * 128 + 1 * k.val = k.val; omega
  · intro p u
    show V c main_v30 (((cfg3.win 2).blk t).view.emb (ix2 p u)) = V c main_v30 (ix2 _ u)
    refine congrArg _ (funext fun a => Fin.ext ?_)
    match a with
    | ⟨0, _⟩ => show win3_2.index t (0 : Fin 2) * 4000 + 1 * p.val = t.val * 4000 + p.val; omega
    | ⟨1, _⟩ => show win3_2.index t (1 : Fin 2) * 1 + 1 * u.val = u.val; omega
  · funext y
    show V c main_v61 (((cfg3.win 3).blk t).view.emb y) = V c main_v61 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show cbRelu (M := 100000) (N := 128) (V c main_v60) (V c main_v47) (V c main_v30) (V c main_v61) (ix2 _ q)
      = cbRelu (M := 100000) (N := 128) (V c main_v60) (V c main_v47) (V c main_v30) (V c main_v61) (((cfg3.win 4).blk t).view.emb (ix2 p q))
    refine congrArg _ (funext fun a => Fin.ext ?_)
    match a with
    | ⟨0, _⟩ => show t.val * 4000 + p.val = win3_4.index t (0 : Fin 2) * 4000 + 1 * p.val; omega
    | ⟨1, _⟩ => show q.val = win3_4.index t (1 : Fin 2) * 128 + 1 * q.val; omega

/-- An index of the output array is in point t's block iff each coordinate is in the block's range. -/
theorem mem_blk (t : Fin cfg3.N) (i : S100000x128.Idx) :
    i ∈ ((cfg3.win 4).blk t).view.set ↔ ∀ a : Fin 2, win3_4.index t a * S4000x128.size a ≤ (i a).val
      ∧ (i a).val < win3_4.index t a * S4000x128.size a + S4000x128.size a := by
  show i ∈ ((View.whole main_v62).slice (win3_4.rect t)).set ↔ _
  rw [View.set_slice_whole, Rect.mem_set_unit]
  exact Iff.rfl

/-- Row r of the output is in the block of point r / 4000. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 4000, by show (i 0).val / 4000 < 25; omega⟩
  obtain ⟨e00, e01, e10, e11, e20, e21, e30, e31, e40, e41⟩ := idx t
  have e40' : win3_4.index t (0 : Fin 2) = (i 0).val / 4000 := e40
  refine ⟨t, flush3_4 t, ?_⟩
  rw [mem_blk]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

/-- After the launch the output array holds the combined array of the arrays the launch found. -/
theorem value (c : Dev nD) :
    (dat3 V c).arrAt 4 cfg3.N = cbRelu (M := 100000) (N := 128) (V c main_v60) (V c main_v47) (V c main_v30) (V c main_v61) :=
  (dat3 V c).arrAt_eq_of_cover 4 _ (fun t _ => flushed V c t) cover

end Cert.KernelIdeal.Launch3

end
-- ==== Proof.Launch4.lean ====
/-
  Launch 4 multiplies a matrix of 100000 rows (the layer's input) by the layer's weight matrix, 4000 rows at a grid
  point, 25 points.  Point t loads rows 4000 t … 4000 t + 3999 of the left matrix and the whole right matrix and
  writes the same rows of the product; the 25 row blocks tile the output, so after the launch the output array is the
  whole product.
-/
import proofs.«175810_j32117765439962_1_alg».proof.Proof.Gen.KernelIdeal.Frame
import proofs.«175810_j32117765439962_1_alg».proof.Proof.MmBlock
import Idealize.ShloMosaic.Lib.Pipeline.Value

set_option maxRecDepth 16384

noncomputable section

namespace Cert.KernelIdeal.Launch4

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at every grid point: the left matrix and the product move down the rows
    with the point, the right matrix stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's arithmetic at an entry of the block. -/
theorem pay (X : FVec Ideal S100000x128 .f32) (Wt : FVec Ideal S128x128 .f32)
    (x0 : Vec Ideal S4000x128 .f32) (x1 : Vec Ideal S128x128 .f32) (r : Fin 4000 → Fin 100000)
    (hx0 : ∀ (p : Fin 4000) (k : Fin 128), x0 (ix2 p k) = X (ix2 (r p) k)) (hx1 : x1 = Wt) (p : Fin 4000) (q : Fin 128) :
    k4_pay1 x0 x1 (ix2 p q) = mm (M := 100000) (K := 128) (N := 128) X Wt (ix2 (r p) q) := by
  unfold k4_pay1
  rw [shapeCast_self x0]
  exact mm_block (M := 4000) (K := 128) (N := 128) (R := 100000) X Wt x0 x1 r hx0 hx1 _ p q

/-- What point t writes back is block t of the whole product. -/
theorem flushed (c : Dev nD) (t : Fin cfg4.N) :
    (dat4 V c).flushed 2 t = ((cfg4.win 2).blk t).view.read (Elt Ideal)
      (mm (M := 100000) (K := 128) (N := 128) (V c main_v62) (V c main_arg5)) := by
  show (cfg4.win 2).cut (grid4.coords t) ((dat4 V c).after 2 t) = _
  rw [after4_2]
  unfold out4_2
  rw [View.canon_unit_zero hz]
  simp only [View.ld_unit_zero (S := S4000x128) hz, View.ld_unit_zero (S := S128x128) hz]
  obtain ⟨e00, e01, e10, e11, e20, e21⟩ := idx t
  have ht : t.val < 25 := t.isLt
  funext j
  obtain ⟨p, q, rfl⟩ : ∃ (p : Fin 4000) (q : Fin 128), j = ix2 p q := ⟨j 0, j 1, eq_ix2 j⟩
  refine (pay (V c main_v62) (V c main_arg5) (iblk4 V c 0 t) (iblk4 V c 1 t)
    (fun p => ⟨t.val * 4000 + p.val, by have := p.isLt; omega⟩) ?_ ?_ p q).trans ?_
  · intro p k
    show V c main_v62 (((cfg4.win 0).blk t).view.emb (ix2 p k)) = V c main_v62 (ix2 _ k)
    refine congrArg _ (funext fun a => Fin.ext ?_)
    match a with
    | ⟨0, _⟩ => show win4_0.index t (0 : Fin 2) * 4000 + 1 * p.val = t.val * 4000 + p.val; omega
    | ⟨1, _⟩ => show win4_0.index t (1 : Fin 2) * 128 + 1 * k.val = k.val; omega
  · funext y
    show V c main_arg5 (((cfg4.win 1).blk t).view.emb y) = V c main_arg5 y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · show mm (M := 100000) (K := 128) (N := 128) (V c main_v62) (V c main_arg5) (ix2 _ q)
      = mm (M := 100000) (K := 128) (N := 128) (V c main_v62) (V c main_arg5) (((cfg4.win 2).blk t).view.emb (ix2 p q))
    refine congrArg _ (funext fun a => Fin.ext ?_)
    match a with
    | ⟨0, _⟩ => show t.val * 4000 + p.val = win4_2.index t (0 : Fin 2) * 4000 + 1 * p.val; omega
    | ⟨1, _⟩ => show q.val = win4_2.index t (1 : Fin 2) * 128 + 1 * q.val; omega

/-- An index of the output array is in point t's block iff each coordinate is in the block's range. -/
theorem mem_blk (t : Fin cfg4.N) (i : S100000x128.Idx) :
    i ∈ ((cfg4.win 2).blk t).view.set ↔ ∀ a : Fin 2, win4_2.index t a * S4000x128.size a ≤ (i a).val
      ∧ (i a).val < win4_2.index t a * S4000x128.size a + S4000x128.size a := by
  show i ∈ ((View.whole main_v63).slice (win4_2.rect t)).set ↔ _
  rw [View.set_slice_whole, Rect.mem_set_unit]
  exact Iff.rfl

/-- Row r of the output is in the block of point r / 4000. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  let t : Fin cfg4.N := ⟨(i 0).val / 4000, by show (i 0).val / 4000 < 25; omega⟩
  obtain ⟨e00, e01, e10, e11, e20, e21⟩ := idx t
  have e20' : win4_2.index t (0 : Fin 2) = (i 0).val / 4000 := e20
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- After the launch the output array holds the whole product of the arrays the launch found. -/
theorem value (c : Dev nD) :
    (dat4 V c).arrAt 2 cfg4.N = mm (M := 100000) (K := 128) (N := 128) (V c main_v62) (V c main_arg5) :=
  (dat4 V c).arrAt_eq_of_cover 2 _ (fun t _ => flushed V c t) cover

end Cert.KernelIdeal.Launch4

end
-- ==== Proof.Launch5.lean ====
/-
  Launch 5 combines, 4000 rows at a grid point, 25 points: at point t it loads rows 4000 t … 4000 t + 3999 of the
  edge sums, of the layer's product and of the column of node coefficients, and the whole bias row, and writes the
  same rows of: edge sum + coefficient × product + bias, clamped below at zero.  The 25 row blocks tile the output.
-/
import proofs.«175810_j32117765439962_1_alg».proof.Proof.Gen.KernelIdeal.Frame
import proofs.«175810_j32117765439962_1_alg».proof.Proof.Spec
import proofs.«175810_j32117765439962_1_alg».proof.Proof.LibColBroadcast
import Idealize.ShloMosaic.Lib.Pipeline.Value
import Idealize.ShloMosaic.Lib.ValueLayout

set_option maxRecDepth 16384

noncomputable section

namespace Cert.KernelIdeal.Launch5

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at every grid point: the three row-blocked inputs and the output move down
    the rows with the point, the bias row stays. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's arithmetic at an entry of the block. -/
theorem pay (A H : FVec Ideal S100000x128 .f32) (Sn : FVec Ideal S100000x1 .f32) (B : FVec Ideal S1x128 .f32)
    (x0 x1 : Vec Ideal S4000x128 .f32) (x2 : Vec Ideal S4000x1 .f32) (x3 : Vec Ideal S1x128 .f32) (r : Fin 4000 → Fin 100000)
    (h0 : ∀ (p : Fin 4000) (q : Fin 128), x0 (ix2 p q) = A (ix2 (r p) q))
    (h1 : ∀ (p : Fin 4000) (q : Fin 128), x1 (ix2 p q) = H (ix2 (r p) q))
    (h2 : ∀ (p : Fin 4000) (u : Fin 1), x2 (ix2 p u) = Sn (ix2 (r p) u)) (h3 : x3 = B) (p : Fin 4000) (q : Fin 128) :
    k5_pay1 x0 x2 x1 x3 (ix2 p q) = cbRelu (M := 100000) (N := 128) A H Sn B (ix2 (r p) q) := by
  unfold k5_pay1
  rw [shapeCast_self x0, shapeCast_self x1, shapeCast_self x2, shapeCast_self x3]
  show max ((x0 (ix2 p q) + broadcastTo S4000x128 x2 Facts₀.broadcasts_S4000x1_S4000x128 (ix2 p q) * x1 (ix2 p q))
      + broadcastTo S4000x128 x3 Facts₀.broadcasts_S1x128_S4000x128 (ix2 p q)) (Ideal.ofBits .f32 0x00000000#32) = _
  rw [Cert.ColBroadcast.broadcastTo_a1_ab_apply (a := 4000) (b := 128) x2, broadcastTo_1b_ab_apply (a := 4000) (b := 128) x3,
    h0, h1, h2, h3]
  rfl

/-- What point t writes back is block t of the combined array. -/
theorem flushed (c : Dev nD) (t : Fin cfg5.N) :
    (dat5 V c).flushed 4 t = ((cfg5.win 4).blk t).view.read (Elt Ideal)
      (cbRelu (M := 100000) (N := 128) (V c main_v76) (V c main_v63) (V c main_v30) (V c main_v77)) := by
  show (cfg5.win 4).cut (grid5.coords t) ((dat5 V c).after 4 t) = _
  rw [after5_4]
  unfold out5_4
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41⟩ := idx t
  have ht : t.val < 25 := t.isLt
  funext j
  obtain ⟨p, q, rfl⟩ : ∃ (p : Fin 4000) (q : Fin 128), j = ix2 p q := ⟨j 0, j 1, eq_ix2 j⟩
  refine (pay (V c main_v76) (V c main_v63) (V c main_v30) (V c main_v77) (iblk5 V c 0 t) (iblk5 V c 1 t) (iblk5 V c 2 t) (iblk5 V c 3 t)
    (fun p => ⟨t.val * 4000 + p.val, by have := p.isLt; omega⟩) ?_ ?_ ?_ ?_ p q).trans ?_
  · intro p k
    show V c main_v76 (((cfg5.win 0).blk t).view.emb (ix2 p k)) = V c main_v76 (ix2 _ k)
    refine congrArg _ (funext fun a => Fin.ext ?_)
    match a with
    | ⟨0, _⟩ => show win5_0.index t (0 : Fin 2) * 4000 + 1 * p.val = t.val * 4000 + p.val; omega
    | ⟨1, _⟩ => show win5_0.index t (1 : Fin 2) * 128 + 1 * k.val = k.val; omega
  · intro p k
    show V c main_v63 (((cfg5.win 1).blk t).view.emb (ix2 p k)) = V c main_v63 (ix2 _ k)
    refine congrArg _ (funext fun a => Fin.ext ?_)
    match a with
    | ⟨0, _⟩ => show win5_1.index t (0 : Fin 2) * 4000 + 1 * p.val = t.val * 4000 + p.val; omega
    | ⟨1, _⟩ => show win5_1.index t (1 : Fin 2) * 128 + 1 * k.val = k.val; omega
  · intro p u
    show V c main_v30 (((cfg5.win 2).blk t).view.emb (ix2 p u)) = V c main_v30 (ix2 _ u)
    refine congrArg _ (funext fun a => Fin.ext ?_)
    match a with
    | ⟨0, _⟩ => show win5_2.index t (0 : Fin 2) * 4000 + 1 * p.val = t.val * 4000 + p.val; omega
    | ⟨1, _⟩ => show win5_2.index t (1 : Fin 2) * 1 + 1 * u.val = u.val; omega
  · funext y
    show V c main_v77 (((cfg5.win 3).blk t).view.emb y) = V c main_v77 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · show cbRelu (M := 100000) (N := 128) (V c main_v76) (V c main_v63) (V c main_v30) (V c main_v77) (ix2 _ q)
      = cbRelu (M := 100000) (N := 128) (V c main_v76) (V c main_v63) (V c main_v30) (V c main_v77) (((cfg5.win 4).blk t).view.emb (ix2 p q))
    refine congrArg _ (funext fun a => Fin.ext ?_)
    match a with
    | ⟨0, _⟩ => show t.val * 4000 + p.val = win5_4.index t (0 : Fin 2) * 4000 + 1 * p.val; omega
    | ⟨1, _⟩ => show q.val = win5_4.index t (1 : Fin 2) * 128 + 1 * q.val; omega

/-- An index of the output array is in point t's block iff each coordinate is in the block's range. -/
theorem mem_blk (t : Fin cfg5.N) (i : S100000x128.Idx) :
    i ∈ ((cfg5.win 4).blk t).view.set ↔ ∀ a : Fin 2, win5_4.index t a * S4000x128.size a ≤ (i a).val
      ∧ (i a).val < win5_4.index t a * S4000x128.size a + S4000x128.size a := by
  show i ∈ ((View.whole main_v78).slice (win5_4.rect t)).set ↔ _
  rw [View.set_slice_whole, Rect.mem_set_unit]
  exact Iff.rfl

/-- Row r of the output is in the block of point r / 4000. -/
theorem cover (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  let t : Fin cfg5.N := ⟨(i 0).val / 4000, by show (i 0).val / 4000 < 25; omega⟩
  obtain ⟨e00, e01, e10, e11, e20, e21, e30, e31, e40, e41⟩ := idx t
  have e40' : win5_4.index t (0 : Fin 2) = (i 0).val / 4000 := e40
  refine ⟨t, flush5_4 t, ?_⟩
  rw [mem_blk]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 128 ≤ (i 1).val ∧ (i 1).val < win5_4.index t (1 : Fin 2) * 128 + 128; omega

/-- After the launch the output array holds the combined array of the arrays the launch found. -/
theorem value (c : Dev nD) :
    (dat5 V c).arrAt 4 cfg5.N = cbRelu (M := 100000) (N := 128) (V c main_v76) (V c main_v63) (V c main_v30) (V c main_v77) :=
  (dat5 V c).arrAt_eq_of_cover 4 _ (fun t _ => flushed V c t) cover

end Cert.KernelIdeal.Launch5

end
-- ==== Proof.Launch6.lean ====
/-
  Launch 6 multiplies a matrix of 100000 rows (the layer's input) by the layer's weight matrix, 4000 rows at a grid
  point, 25 points.  Point t loads rows 4000 t … 4000 t + 3999 of the left matrix and the whole right matrix and
  writes the same rows of the product; the 25 row blocks tile the output, so after the launch the output array is the
  whole product.
-/
import proofs.«175810_j32117765439962_1_alg».proof.Proof.Gen.KernelIdeal.Frame
import proofs.«175810_j32117765439962_1_alg».proof.Proof.MmBlock
import Idealize.ShloMosaic.Lib.Pipeline.Value

set_option maxRecDepth 16384

noncomputable section

namespace Cert.KernelIdeal.Launch6

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at every grid point: the left matrix and the product move down the rows
    with the point, the right matrix stays. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's arithmetic at an entry of the block. -/
theorem pay (X : FVec Ideal S100000x128 .f32) (Wt : FVec Ideal S128x1 .f32)
    (x0 : Vec Ideal S4000x128 .f32) (x1 : Vec Ideal S128x1 .f32) (r : Fin 4000 → Fin 100000)
    (hx0 : ∀ (p : Fin 4000) (k : Fin 128), x0 (ix2 p k) = X (ix2 (r p) k)) (hx1 : x1 = Wt) (p : Fin 4000) (q : Fin 1) :
    k6_pay1 x0 x1 (ix2 p q) = mm (M := 100000) (K := 128) (N := 1) X Wt (ix2 (r p) q) := by
  unfold k6_pay1
  rw [shapeCast_self x0]
  exact mm_block (M := 4000) (K := 128) (N := 1) (R := 100000) X Wt x0 x1 r hx0 hx1 _ p q

/-- What point t writes back is block t of the whole product. -/
theorem flushed (c : Dev nD) (t : Fin cfg6.N) :
    (dat6 V c).flushed 2 t = ((cfg6.win 2).blk t).view.read (Elt Ideal)
      (mm (M := 100000) (K := 128) (N := 1) (V c main_v78) (V c main_arg7)) := by
  show (cfg6.win 2).cut (grid6.coords t) ((dat6 V c).after 2 t) = _
  rw [after6_2]
  unfold out6_2
  rw [View.canon_unit_zero hz]
  simp only [View.ld_unit_zero (S := S4000x128) hz, View.ld_unit_zero (S := S128x1) hz]
  obtain ⟨e00, e01, e10, e11, e20, e21⟩ := idx t
  have ht : t.val < 25 := t.isLt
  funext j
  obtain ⟨p, q, rfl⟩ : ∃ (p : Fin 4000) (q : Fin 1), j = ix2 p q := ⟨j 0, j 1, eq_ix2 j⟩
  refine (pay (V c main_v78) (V c main_arg7) (iblk6 V c 0 t) (iblk6 V c 1 t)
    (fun p => ⟨t.val * 4000 + p.val, by have := p.isLt; omega⟩) ?_ ?_ p q).trans ?_
  · intro p k
    show V c main_v78 (((cfg6.win 0).blk t).view.emb (ix2 p k)) = V c main_v78 (ix2 _ k)
    refine congrArg _ (funext fun a => Fin.ext ?_)
    match a with
    | ⟨0, _⟩ => show win6_0.index t (0 : Fin 2) * 4000 + 1 * p.val = t.val * 4000 + p.val; omega
    | ⟨1, _⟩ => show win6_0.index t (1 : Fin 2) * 128 + 1 * k.val = k.val; omega
  · funext y
    show V c main_arg7 (((cfg6.win 1).blk t).view.emb y) = V c main_arg7 y
    refine congrArg _ (funext fun a => Fin.ext ?_)
    match a with
    | ⟨0, _⟩ => show win6_1.index t (0 : Fin 2) * 128 + 1 * (y 0).val = (y 0).val; omega
    | ⟨1, _⟩ => show win6_1.index t (1 : Fin 2) * 1 + 1 * (y 1).val = (y 1).val; omega
  · show mm (M := 100000) (K := 128) (N := 1) (V c main_v78) (V c main_arg7) (ix2 _ q)
      = mm (M := 100000) (K := 128) (N := 1) (V c main_v78) (V c main_arg7) (((cfg6.win 2).blk t).view.emb (ix2 p q))
    refine congrArg _ (funext fun a => Fin.ext ?_)
    match a with
    | ⟨0, _⟩ => show t.val * 4000 + p.val = win6_2.index t (0 : Fin 2) * 4000 + 1 * p.val; omega
    | ⟨1, _⟩ => show q.val = win6_2.index t (1 : Fin 2) * 1 + 1 * q.val; omega

/-- An index of the output array is in point t's block iff each coordinate is in the block's range. -/
theorem mem_blk (t : Fin cfg6.N) (i : S100000x1.Idx) :
    i ∈ ((cfg6.win 2).blk t).view.set ↔ ∀ a : Fin 2, win6_2.index t a * S4000x1.size a ≤ (i a).val
      ∧ (i a).val < win6_2.index t a * S4000x1.size a + S4000x1.size a := by
  show i ∈ ((View.whole main_v79).slice (win6_2.rect t)).set ↔ _
  rw [View.set_slice_whole, Rect.mem_set_unit]
  exact Iff.rfl

/-- Row r of the output is in the block of point r / 4000. -/
theorem cover (i : S100000x1.Idx) : ∃ t : Fin cfg6.N, (cfg6.win 2).flush t = true ∧ i ∈ ((cfg6.win 2).blk t).view.set := by
  have hi0 : (i 0).val < 100000 := (i 0).isLt
  have hi1 : (i 1).val < 1 := (i 1).isLt
  let t : Fin cfg6.N := ⟨(i 0).val / 4000, by show (i 0).val / 4000 < 25; omega⟩
  obtain ⟨e00, e01, e10, e11, e20, e21⟩ := idx t
  have e20' : win6_2.index t (0 : Fin 2) = (i 0).val / 4000 := e20
  refine ⟨t, flush6_2 t, ?_⟩
  rw [mem_blk]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 1 ≤ (i 1).val ∧ (i 1).val < win6_2.index t (1 : Fin 2) * 1 + 1; omega

/-- After the launch the output array holds the whole product of the arrays the launch found. -/
theorem value (c : Dev nD) :
    (dat6 V c).arrAt 2 cfg6.N = mm (M := 100000) (K := 128) (N := 1) (V c main_v78) (V c main_arg7) :=
  (dat6 V c).arrAt_eq_of_cover 2 _ (fun t _ => flushed V c t) cover

end Cert.KernelIdeal.Launch6

end
-- ==== Proof.Launch7.lean ====
/-
  Launch 7 combines, 4000 rows at a grid point, 25 points: at point t it loads rows 4000 t … 4000 t + 3999 of the
  edge sums, of the layer's product and of the column of node coefficients, and the whole bias row, and writes the
  same rows of: edge sum + coefficient × product + bias (the last layer: one column, not clamped).  The 25 row blocks tile the output.
-/
import proofs.«175810_j32117765439962_1_alg».proof.Proof.Gen.KernelIdeal.Frame
import proofs.«175810_j32117765439962_1_alg».proof.Proof.Spec
import proofs.«175810_j32117765439962_1_alg».proof.Proof.LibColBroadcast
import Idealize.ShloMosaic.Lib.Pipeline.Value
import Idealize.ShloMosaic.Lib.ValueLayout

set_option maxRecDepth 16384

noncomputable section

namespace Cert.KernelIdeal.Launch7

open Cert.KernelIdeal Cert.KernelIdeal.Facts₀ Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at every grid point: the three row-blocked inputs and the output move down
    the rows with the point, the bias row stays. -/
theorem idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The body's arithmetic at an entry of the block. -/
theorem pay (A H : FVec Ideal S100000x1 .f32) (Sn : FVec Ideal S100000x1 .f32) (B : FVec Ideal S1x1 .f32)
    (x0 x1 : Vec Ideal S4000x1 .f32) (x2 : Vec Ideal S4000x1 .f32) (x3 : Vec Ideal S1x1 .f32) (r : Fin 4000 → Fin 100000)
    (h0 : ∀ (p : Fin 4000) (q : Fin 1), x0 (ix2 p q) = A (ix2 (r p) q))
    (h1 : ∀ (p : Fin 4000) (q : Fin 1), x1 (ix2 p q) = H (ix2 (r p) q))
    (h2 : ∀ (p : Fin 4000) (u : Fin 1), x2 (ix2 p u) = Sn (ix2 (r p) u)) (h3 : x3 = B) (p : Fin 4000) (q : Fin 1) :
    k7_pay1 x0 x2 x1 x3 (ix2 p q) = cb (M := 100000) (N := 1) A H Sn B (ix2 (r p) q) := by
  unfold k7_pay1
  rw [shapeCast_self x0, shapeCast_self x1, shapeCast_self x2, shapeCast_self x3]
  have hq : q = (0 : Fin 1) := Subsingleton.elim _ _
  subst hq
  show (x0 (ix2 p 0) + x2 (ix2 p 0) * x1 (ix2 p 0)) + broadcastTo S4000x1 x3 Facts₀.broadcasts_S1x1_S4000x1 (ix2 p 0) = _
  rw [broadcastTo_1b_ab_apply (a := 4000) (b := 1) x3, h0, h1, h2, h3]
  rfl

/-- What point t writes back is block t of the combined array. -/
theorem flushed (c : Dev nD) (t : Fin cfg7.N) :
    (dat7 V c).flushed 4 t = ((cfg7.win 4).blk t).view.read (Elt Ideal)
      (cb (M := 100000) (N := 1) (V c main_v91) (V c main_v79) (V c main_v30) (V c main_v92)) := by
  show (cfg7.win 4).cut (grid7.coords t) ((dat7 V c).after 4 t) = _
  rw [after7_4]
  unfold out7_4
  rw [View.canon_unit_zero hz]
  simp only [View.ld_unit_zero (S := S4000x1) hz, View.ld_unit_zero (S := S1x1) hz]
  obtain ⟨e00, e01, e10, e11, e20, e21, e30, e31, e40, e41⟩ := idx t
  have ht : t.val < 25 := t.isLt
  funext j
  obtain ⟨p, q, rfl⟩ : ∃ (p : Fin 4000) (q : Fin 1), j = ix2 p q := ⟨j 0, j 1, eq_ix2 j⟩
  refine (pay (V c main_v91) (V c main_v79) (V c main_v30) (V c main_v92) (iblk7 V c 0 t) (iblk7 V c 1 t) (iblk7 V c 2 t) (iblk7 V c 3 t)
    (fun p => ⟨t.val * 4000 + p.val, by have := p.isLt; omega⟩) ?_ ?_ ?_ ?_ p q).trans ?_
  · intro p k
    show V c main_v91 (((cfg7.win 0).blk t).view.emb (ix2 p k)) = V c main_v91 (ix2 _ k)
    refine congrArg _ (funext fun a => Fin.ext ?_)
    match a with
    | ⟨0, _⟩ => show win7_0.index t (0 : Fin 2) * 4000 + 1 * p.val = t.val * 4000 + p.val; omega
    | ⟨1, _⟩ => show win7_0.index t (1 : Fin 2) * 1 + 1 * k.val = k.val; omega
  · intro p k
    show V c main_v79 (((cfg7.win 1).blk t).view.emb (ix2 p k)) = V c main_v79 (ix2 _ k)
    refine congrArg _ (funext fun a => Fin.ext ?_)
    match a with
    | ⟨0, _⟩ => show win7_1.index t (0 : Fin 2) * 4000 + 1 * p.val = t.val * 4000 + p.val; omega
    | ⟨1, _⟩ => show win7_1.index t (1 : Fin 2) * 1 + 1 * k.val = k.val; omega
  · intro p u
    show V c main_v30 (((cfg7.win 2).blk t).view.emb (ix2 p u)) = V c main_v30 (ix2 _ u)
    refine congrArg _ (funext fun a => Fin.ext ?_)
    match a with
    | ⟨0, _⟩ => show win7_2.index t (0 : Fin 2) * 4000 + 1 * p.val = t.val * 4000 + p.val; omega
    | ⟨1, _⟩ => show win7_2.index t (1 : Fin 2) * 1 + 1 * u.val = u.val; omega
  · funext y
    show V c main_v92 (((cfg7.win 3).blk t).view.emb y) = V c main_v92 y
    refine congrArg _ (funext fun a => Fin.ext ?_)
    match a with
    | ⟨0, _⟩ => show win7_3.index t (0 : Fin 2) * 1 + 1 * (y 0).val = (y 0).val; omega
    | ⟨1, _⟩ => show win7_3.index t (1 : Fin 2) * 1 + 1 * (y 1).val = (y 1).val; omega
  · show cb (M := 100000) (N := 1) (V c main_v91) (V c main_v79) (V c main_v30) (V c main_v92) (ix2 _ q)
      = cb (M := 100000) (N := 1) (V c main_v91) (V c main_v79) (V c main_v30) (V c main_v92) (((cfg7.win 4).blk t).view.emb (ix2 p q))
    refine congrArg _ (funext fun a => Fin.ext ?_)
    match a with
    | ⟨0, _⟩ => show t.val * 4000 + p.val = win7_4.index t (0 : Fin 2) * 4000 + 1 * p.val; omega
    | ⟨1, _⟩ => show q.val = win7_4.index t (1 : Fin 2) * 1 + 1 * q.val; omega

/-- An index of the output array is in point t's block iff each coordinate is in the block's range. -/
theorem mem_blk (t : Fin cfg7.N) (i : S100000x1.Idx) :
    i ∈ ((cfg7.win 4).blk t).view.set ↔ ∀ a : Fin 2, win7_4.index t a * S4000x1.size a ≤ (i a).val
      ∧ (i a).val < win7_4.index t a * S4000x1.size a + S4000x1.size a := by
  show i ∈ ((View.whole main_v93).slice (win7_4.rect t)).set ↔ _
  rw [View.set_slice_whole, Rect.mem_set_unit]
  exact Iff.rfl

/-- Row r of the output is in the block of point r / 4000. -/
theorem cover (i : S100000x1.Idx) : ∃ t : Fin cfg7.N, (cfg7.win 4).flush t = true ∧ i ∈ ((cfg7.win 4).blk t).view.set := by
  have hi0 : (i 0).val < 100000 := (i 0).isLt
  have hi1 : (i 1).val < 1 := (i 1).isLt
  let t : Fin cfg7.N := ⟨(i 0).val / 4000, by show (i 0).val / 4000 < 25; omega⟩
  obtain ⟨e00, e01, e10, e11, e20, e21, e30, e31, e40, e41⟩ := idx t
  have e40' : win7_4.index t (0 : Fin 2) = (i 0).val / 4000 := e40
  refine ⟨t, flush7_4 t, ?_⟩
  rw [mem_blk]
  intro a
  match a with
  | ⟨0, _⟩ => show win7_4.index t (0 : Fin 2) * 4000 ≤ (i 0).val ∧ (i 0).val < win7_4.index t (0 : Fin 2) * 4000 + 4000; omega
  | ⟨1, _⟩ => show win7_4.index t (1 : Fin 2) * 1 ≤ (i 1).val ∧ (i 1).val < win7_4.index t (1 : Fin 2) * 1 + 1; omega

/-- After the launch the output array holds the combined array of the arrays the launch found. -/
theorem value (c : Dev nD) :
    (dat7 V c).arrAt 4 cfg7.N = cb (M := 100000) (N := 1) (V c main_v91) (V c main_v79) (V c main_v30) (V c main_v92) :=
  (dat7 V c).arrAt_eq_of_cover 4 _ (fun t _ => flushed V c t) cover

end Cert.KernelIdeal.Launch7

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.Walk.lean ====
/-
  The kernel's program read from its first line to its last.  The contents of the buffers at the fifteen segment
  boundaries are a fold; this module reads, boundary after boundary, the buffers the next segment needs: the edge
  list's two rows, the edge and node coefficients and the arguments after the opening host operations; after each
  product launch the product; after each host stretch the edge sums and the bias row; after each combine launch the
  layer's output.  A buffer written early and read late is carried by the lemmas on what each segment leaves alone.
  The last boundary's result buffer is the network `net` of the arguments.
-/
import proofs.«175810_j32117765439962_1_alg».proof.Proof.Keep
import proofs.«175810_j32117765439962_1_alg».proof.Proof.Launch0
import proofs.«175810_j32117765439962_1_alg».proof.Proof.Launch1
import proofs.«175810_j32117765439962_1_alg».proof.Proof.Launch2
import proofs.«175810_j32117765439962_1_alg».proof.Proof.Launch3
import proofs.«175810_j32117765439962_1_alg».proof.Proof.Launch4
import proofs.«175810_j32117765439962_1_alg».proof.Proof.Launch5
import proofs.«175810_j32117765439962_1_alg».proof.Proof.Launch6
import proofs.«175810_j32117765439962_1_alg».proof.Proof.Launch7
import proofs.«175810_j32117765439962_1_alg».proof.Proof.LibTypedRef
import Idealize.ShloMosaic.Lib.StableHlo.Run

set_option maxRecDepth 16384

noncomputable section

namespace Cert.KernelIdeal.Fold

open Cert.KernelIdeal Cert.KernelIdeal.Facts₀ Cert.KernelIdeal.Gen Cert.KernelIdeal.Spec
open Idealize.ShloMosaic Idealize.ShloMosaic.TcCoe Idealize.SL.Sem Idealize.ShloMosaic.StableHlo

section AnyInstance

variable {F : FTy → Type} [FloatOps F]
variable (m : (ℓ : Loc nD τ sig) → Buf (Elt F) ℓ) (ρ : Dev nD → PrngReg)

/-! ## Before the first launch -/

theorem start_src (c : Dev nD) : W3 m ρ c (Proc.devRef .tc main_v1) = src (m ((c : Thread nD τ).loc main_arg1)) := by
  dsimp only [W3, W2, W1, W0, hostOps0, hostOps0_1, hostOps0_2]
  after_results_simp
  rfl
theorem start_dst (c : Dev nD) : W3 m ρ c (Proc.devRef .tc main_v3) = dst (m ((c : Thread nD τ).loc main_arg1)) := by
  dsimp only [W3, W2, W1, W0, hostOps0, hostOps0_1, hostOps0_2]
  after_results_simp
  rfl
theorem start_enorm (c : Dev nD) : W3 m ρ c (Proc.devRef .tc main_v28) = enorm (src (m ((c : Thread nD τ).loc main_arg1))) (dst (m ((c : Thread nD τ).loc main_arg1))) (m ((c : Thread nD τ).loc main_arg2)) := by
  dsimp only [W3, W2, W1, W0, hostOps0, hostOps0_1, hostOps0_2]
  after_results_simp
  simp only [Cert.LibTypedRef.ofBuf_toBuf]
  rfl
theorem start_sncol (c : Dev nD) : W3 m ρ c (Proc.devRef .tc main_v30) = sncol (dst (m ((c : Thread nD τ).loc main_arg1))) (m ((c : Thread nD τ).loc main_arg2)) := by
  dsimp only [W3, W2, W1, W0, hostOps0, hostOps0_1, hostOps0_2]
  after_results_simp
  simp only [Cert.LibTypedRef.ofBuf_toBuf]
  rfl
theorem start_arg0 (c : Dev nD) : W3 m ρ c (Proc.devRef .tc main_arg0) = (m ((c : Thread nD τ).loc main_arg0)) := by
  dsimp only [W3, W2, W1, W0, hostOps0, hostOps0_1, hostOps0_2]
  after_results_simp
theorem start_arg3 (c : Dev nD) : W3 m ρ c (Proc.devRef .tc main_arg3) = (m ((c : Thread nD τ).loc main_arg3)) := by
  dsimp only [W3, W2, W1, W0, hostOps0, hostOps0_1, hostOps0_2]
  after_results_simp
theorem start_arg4 (c : Dev nD) : W3 m ρ c (Proc.devRef .tc main_arg4) = (m ((c : Thread nD τ).loc main_arg4)) := by
  dsimp only [W3, W2, W1, W0, hostOps0, hostOps0_1, hostOps0_2]
  after_results_simp
theorem start_arg5 (c : Dev nD) : W3 m ρ c (Proc.devRef .tc main_arg5) = (m ((c : Thread nD τ).loc main_arg5)) := by
  dsimp only [W3, W2, W1, W0, hostOps0, hostOps0_1, hostOps0_2]
  after_results_simp
theorem start_arg6 (c : Dev nD) : W3 m ρ c (Proc.devRef .tc main_arg6) = (m ((c : Thread nD τ).loc main_arg6)) := by
  dsimp only [W3, W2, W1, W0, hostOps0, hostOps0_1, hostOps0_2]
  after_results_simp
theorem start_arg7 (c : Dev nD) : W3 m ρ c (Proc.devRef .tc main_arg7) = (m ((c : Thread nD τ).loc main_arg7)) := by
  dsimp only [W3, W2, W1, W0, hostOps0, hostOps0_1, hostOps0_2]
  after_results_simp
theorem start_arg8 (c : Dev nD) : W3 m ρ c (Proc.devRef .tc main_arg8) = (m ((c : Thread nD τ).loc main_arg8)) := by
  dsimp only [W3, W2, W1, W0, hostOps0, hostOps0_1, hostOps0_2]
  after_results_simp

/-! ## The host stretches between the launches, from any contents -/

/-- The stretch before combine 1, from any contents: the edge sums and the bias row. -/
theorem ops1_agg (W : Valuation τ sig (Elt F)) :
    StableHlo.after hostOps1 W (Proc.devRef .tc main_v44) = agg (W (Proc.devRef .tc main_v1)) (W (Proc.devRef .tc main_v3)) (W (Proc.devRef .tc main_v28)) (W (Proc.devRef .tc main_v31)) := by
  dsimp only [hostOps1]
  after_results_simp
  rfl
theorem ops1_bias (W : Valuation τ sig (Elt F)) :
    StableHlo.after hostOps1 W (Proc.devRef .tc main_v45) = shapeCast _ (W (Proc.devRef .tc main_arg4)) Facts₀.shapeCasts_S128_S1x128 := by
  dsimp only [hostOps1]
  after_results_simp
  rfl

/-- The stretch before combine 3, from any contents: the edge sums and the bias row. -/
theorem ops3_agg (W : Valuation τ sig (Elt F)) :
    StableHlo.after hostOps3 W (Proc.devRef .tc main_v60) = agg (W (Proc.devRef .tc main_v1)) (W (Proc.devRef .tc main_v3)) (W (Proc.devRef .tc main_v28)) (W (Proc.devRef .tc main_v47)) := by
  dsimp only [hostOps3]
  after_results_simp
  rfl
theorem ops3_bias (W : Valuation τ sig (Elt F)) :
    StableHlo.after hostOps3 W (Proc.devRef .tc main_v61) = shapeCast _ (W (Proc.devRef .tc main_arg6)) Facts₀.shapeCasts_S128_S1x128 := by
  dsimp only [hostOps3]
  after_results_simp
  rfl

/-- The stretch before combine 5, from any contents: the edge sums and the bias row. -/
theorem ops5_agg (W : Valuation τ sig (Elt F)) :
    StableHlo.after hostOps5 W (Proc.devRef .tc main_v76) = agg (W (Proc.devRef .tc main_v1)) (W (Proc.devRef .tc main_v3)) (W (Proc.devRef .tc main_v28)) (W (Proc.devRef .tc main_v63)) := by
  dsimp only [hostOps5]
  after_results_simp
  rfl
theorem ops5_bias (W : Valuation τ sig (Elt F)) :
    StableHlo.after hostOps5 W (Proc.devRef .tc main_v77) = shapeCast _ (W (Proc.devRef .tc main_arg6)) Facts₀.shapeCasts_S128_S1x128 := by
  dsimp only [hostOps5]
  after_results_simp
  rfl

/-- The stretch before combine 7, from any contents: the edge sums and the bias row. -/
theorem ops7_agg (W : Valuation τ sig (Elt F)) :
    StableHlo.after hostOps7 W (Proc.devRef .tc main_v91) = aggLast (W (Proc.devRef .tc main_v1)) (W (Proc.devRef .tc main_v3)) (W (Proc.devRef .tc main_v28)) (W (Proc.devRef .tc main_v79)) := by
  dsimp only [hostOps7]
  after_results_simp
  rfl
theorem ops7_bias (W : Valuation τ sig (Elt F)) :
    StableHlo.after hostOps7 W (Proc.devRef .tc main_v92) = shapeCast _ (W (Proc.devRef .tc main_arg8)) Facts₀.shapeCasts_S1_S1x1 := by
  dsimp only [hostOps7]
  after_results_simp
  rfl

end AnyInstance

variable (m : (ℓ : Loc nD τ sig) → Buf (Elt Ideal) ℓ) (ρ : Dev nD → PrngReg)

/-! ## Equal parts give equal combines -/

theorem cbRelu_congr {M N : Nat} {a a' h h' : FVec Ideal ⟨2, ![M, N]⟩ .f32} {s s' : FVec Ideal ⟨2, ![M, 1]⟩ .f32}
    {b b' : FVec Ideal ⟨2, ![1, N]⟩ .f32} (ha : a = a') (hh : h = h') (hs : s = s') (hb : b = b') :
    cbRelu a h s b = cbRelu a' h' s' b' := by rw [ha, hh, hs, hb]
theorem cb_congr {M N : Nat} {a a' h h' : FVec Ideal ⟨2, ![M, N]⟩ .f32} {s s' : FVec Ideal ⟨2, ![M, 1]⟩ .f32}
    {b b' : FVec Ideal ⟨2, ![1, N]⟩ .f32} (ha : a = a') (hh : h = h') (hs : s = s') (hb : b = b') :
    cb a h s b = cb a' h' s' b' := by rw [ha, hh, hs, hb]

/-! ## Layer 1 -/

theorem prod1 (c : Dev nD) : W4 m ρ c (Proc.devRef .tc main_v31) = (mm (M := 100000) (K := 128) (N := 128) (m ((c : Thread nD τ).loc main_arg0)) (m ((c : Thread nD τ).loc main_arg3))) :=
  (W4_arr m ρ c 2).trans ((Launch0.value (V3 m ρ) c).trans (congrArg₂ (mm (M := 100000) (K := 128) (N := 128)) (start_arg0 m ρ c) (start_arg3 m ρ c)))
theorem sums1 (c : Dev nD) : W5 m ρ c (Proc.devRef .tc main_v44) = agg (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (mm (M := 100000) (K := 128) (N := 128) (m ((c : Thread nD τ).loc main_arg0)) (m ((c : Thread nD τ).loc main_arg3))) :=
  (ops1_agg (W4 m ρ c)).trans (by
    rw [keep4 m ρ c main_v1 (by decide), start_src, keep4 m ρ c main_v3 (by decide), start_dst,
      keep4 m ρ c main_v28 (by decide), start_enorm, prod1])
theorem prodKept1 (c : Dev nD) : W5 m ρ c (Proc.devRef .tc main_v31) = (mm (M := 100000) (K := 128) (N := 128) (m ((c : Thread nD τ).loc main_arg0)) (m ((c : Thread nD τ).loc main_arg3))) :=
  (host1 m ρ c main_v31 (by decide)).trans (prod1 m ρ c)
theorem coef1 (c : Dev nD) : W5 m ρ c (Proc.devRef .tc main_v30) = (sncol (F := Ideal) (dst (m ((c : Thread nD τ).loc main_arg1))) (m ((c : Thread nD τ).loc main_arg2))) :=
  (keep5 m ρ c main_v30 (by decide)).trans (start_sncol m ρ c)
theorem bias1 (c : Dev nD) : W5 m ρ c (Proc.devRef .tc main_v45) = shapeCast _ (m ((c : Thread nD τ).loc main_arg4)) Facts₀.shapeCasts_S128_S1x128 :=
  (ops1_bias (W4 m ρ c)).trans (by rw [keep4 m ρ c main_arg4 (by decide), start_arg4])
theorem out1 (c : Dev nD) : W6 m ρ c (Proc.devRef .tc main_v46) = (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) :=
  (W6_arr m ρ c 4).trans ((Launch1.value (V5 m ρ) c).trans
    (cbRelu_congr (sums1 m ρ c) (prodKept1 m ρ c) (coef1 m ρ c) (bias1 m ρ c)))

/-! ## Layer 2 -/

theorem prod2 (c : Dev nD) : W7 m ρ c (Proc.devRef .tc main_v47) = (mm (M := 100000) (K := 128) (N := 128) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5))) :=
  (W7_arr m ρ c 2).trans ((Launch2.value (V6 m ρ) c).trans (congrArg₂ (mm (M := 100000) (K := 128) (N := 128)) (out1 m ρ c) ((keep6 m ρ c main_arg5 (by decide)).trans (start_arg5 m ρ c))))
theorem sums2 (c : Dev nD) : W8 m ρ c (Proc.devRef .tc main_v60) = agg (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (mm (M := 100000) (K := 128) (N := 128) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5))) :=
  (ops3_agg (W7 m ρ c)).trans (by
    rw [keep7 m ρ c main_v1 (by decide), start_src, keep7 m ρ c main_v3 (by decide), start_dst,
      keep7 m ρ c main_v28 (by decide), start_enorm, prod2])
theorem prodKept2 (c : Dev nD) : W8 m ρ c (Proc.devRef .tc main_v47) = (mm (M := 100000) (K := 128) (N := 128) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5))) :=
  (host3 m ρ c main_v47 (by decide)).trans (prod2 m ρ c)
theorem coef2 (c : Dev nD) : W8 m ρ c (Proc.devRef .tc main_v30) = (sncol (F := Ideal) (dst (m ((c : Thread nD τ).loc main_arg1))) (m ((c : Thread nD τ).loc main_arg2))) :=
  (keep8 m ρ c main_v30 (by decide)).trans (start_sncol m ρ c)
theorem bias2 (c : Dev nD) : W8 m ρ c (Proc.devRef .tc main_v61) = shapeCast _ (m ((c : Thread nD τ).loc main_arg6)) Facts₀.shapeCasts_S128_S1x128 :=
  (ops3_bias (W7 m ρ c)).trans (by rw [keep7 m ρ c main_arg6 (by decide), start_arg6])
theorem out2 (c : Dev nD) : W9 m ρ c (Proc.devRef .tc main_v62) = (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) :=
  (W9_arr m ρ c 4).trans ((Launch3.value (V8 m ρ) c).trans
    (cbRelu_congr (sums2 m ρ c) (prodKept2 m ρ c) (coef2 m ρ c) (bias2 m ρ c)))

/-! ## Layer 3 -/

theorem prod3 (c : Dev nD) : W10 m ρ c (Proc.devRef .tc main_v63) = (mm (M := 100000) (K := 128) (N := 128) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5))) :=
  (W10_arr m ρ c 2).trans ((Launch4.value (V9 m ρ) c).trans (congrArg₂ (mm (M := 100000) (K := 128) (N := 128)) (out2 m ρ c) ((keep9 m ρ c main_arg5 (by decide)).trans (start_arg5 m ρ c))))
theorem sums3 (c : Dev nD) : W11 m ρ c (Proc.devRef .tc main_v76) = agg (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (mm (M := 100000) (K := 128) (N := 128) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5))) :=
  (ops5_agg (W10 m ρ c)).trans (by
    rw [keep10 m ρ c main_v1 (by decide), start_src, keep10 m ρ c main_v3 (by decide), start_dst,
      keep10 m ρ c main_v28 (by decide), start_enorm, prod3])
theorem prodKept3 (c : Dev nD) : W11 m ρ c (Proc.devRef .tc main_v63) = (mm (M := 100000) (K := 128) (N := 128) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5))) :=
  (host5 m ρ c main_v63 (by decide)).trans (prod3 m ρ c)
theorem coef3 (c : Dev nD) : W11 m ρ c (Proc.devRef .tc main_v30) = (sncol (F := Ideal) (dst (m ((c : Thread nD τ).loc main_arg1))) (m ((c : Thread nD τ).loc main_arg2))) :=
  (keep11 m ρ c main_v30 (by decide)).trans (start_sncol m ρ c)
theorem bias3 (c : Dev nD) : W11 m ρ c (Proc.devRef .tc main_v77) = shapeCast _ (m ((c : Thread nD τ).loc main_arg6)) Facts₀.shapeCasts_S128_S1x128 :=
  (ops5_bias (W10 m ρ c)).trans (by rw [keep10 m ρ c main_arg6 (by decide), start_arg6])
theorem out3 (c : Dev nD) : W12 m ρ c (Proc.devRef .tc main_v78) = (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5)) (m ((c : Thread nD τ).loc main_arg6))) :=
  (W12_arr m ρ c 4).trans ((Launch5.value (V11 m ρ) c).trans
    (cbRelu_congr (sums3 m ρ c) (prodKept3 m ρ c) (coef3 m ρ c) (bias3 m ρ c)))

/-! ## Layer 4 -/

theorem prod4 (c : Dev nD) : W13 m ρ c (Proc.devRef .tc main_v79) = (mm (M := 100000) (K := 128) (N := 1) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5)) (m ((c : Thread nD τ).loc main_arg6))) (m ((c : Thread nD τ).loc main_arg7))) :=
  (W13_arr m ρ c 2).trans ((Launch6.value (V12 m ρ) c).trans (congrArg₂ (mm (M := 100000) (K := 128) (N := 1)) (out3 m ρ c) ((keep12 m ρ c main_arg7 (by decide)).trans (start_arg7 m ρ c))))
theorem sums4 (c : Dev nD) : W14 m ρ c (Proc.devRef .tc main_v91) = aggLast (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (mm (M := 100000) (K := 128) (N := 1) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5)) (m ((c : Thread nD τ).loc main_arg6))) (m ((c : Thread nD τ).loc main_arg7))) :=
  (ops7_agg (W13 m ρ c)).trans (by
    rw [keep13 m ρ c main_v1 (by decide), start_src, keep13 m ρ c main_v3 (by decide), start_dst,
      keep13 m ρ c main_v28 (by decide), start_enorm, prod4])
theorem prodKept4 (c : Dev nD) : W14 m ρ c (Proc.devRef .tc main_v79) = (mm (M := 100000) (K := 128) (N := 1) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (layer (src (m ((c : Thread nD τ).loc main_arg1))) (dst (m ((c : Thread nD τ).loc main_arg1))) (enorm (F := Ideal) (src (m ((c : Thread nD τ).loc main_arg1))) (dst (m ((c : Thread nD τ).loc main_arg1))) (m ((c : Thread nD τ).loc main_arg2))) (sncol (F := Ideal) (dst (m ((c : Thread nD τ).loc main_arg1))) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg5)) (m ((c : Thread nD τ).loc main_arg6))) (m ((c : Thread nD τ).loc main_arg7))) :=
  (host7 m ρ c main_v79 (by decide)).trans (prod4 m ρ c)
theorem coef4 (c : Dev nD) : W14 m ρ c (Proc.devRef .tc main_v30) = (sncol (F := Ideal) (dst (m ((c : Thread nD τ).loc main_arg1))) (m ((c : Thread nD τ).loc main_arg2))) :=
  (keep14 m ρ c main_v30 (by decide)).trans (start_sncol m ρ c)
theorem bias4 (c : Dev nD) : W14 m ρ c (Proc.devRef .tc main_v92) = shapeCast _ (m ((c : Thread nD τ).loc main_arg8)) Facts₀.shapeCasts_S1_S1x1 :=
  (ops7_bias (W13 m ρ c)).trans (by rw [keep13 m ρ c main_arg8 (by decide), start_arg8])
theorem out4 (c : Dev nD) : W15 m ρ c (Proc.devRef .tc main_v93) = (net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W15_arr m ρ c 4).trans ((Launch7.value (V14 m ρ) c).trans
    (cb_congr (sums4 m ρ c) (prodKept4 m ρ c) (coef4 m ρ c) (bias4 m ρ c)))

end Cert.KernelIdeal.Fold

end
-- ==== Proof.KernelRun.lean ====
/-
  The kernel's program run to its end, with its result.  Every weakly fair execution of @main terminates without a
  fault; in the final state every unscoped buffer holds the last boundary's contents — in particular the result
  buffer, which those contents give as the network of the arguments (the fold read boundary by boundary) — and the
  arguments are as launched.
-/
import proofs.«175810_j32117765439962_1_alg».proof.Proof.Walk
import proofs.«175810_j32117765439962_1_alg».proof.Proof.KernelRunGen

set_option maxRecDepth 16384

noncomputable section

namespace Cert.KernelIdeal.Fold

open Cert.KernelIdeal Cert.KernelIdeal.Gen Cert.KernelIdeal.Spec
open Idealize.ShloMosaic Idealize.ShloMosaic.TcCoe Idealize.SL.Sem

variable (m : (ℓ : Loc nD τ sig) → Buf (Elt Ideal) ℓ) (ρ : Dev nD → PrngReg)

/-- The run with the result named: the network of the arguments. -/
theorem run_net : θ_run defs (onTc (τ := τ) (main (F := Ideal))) ⟨m, fun _ => 0, ρ⟩ (fun r => ∀ c : Dev nD,
      r.2.mem ((c.tc : Thread nD τ).loc main_v93) = (net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out4 m ρ c), (h c).2⟩) (Cert.KernelIdeal.GenP.run m ρ)

end Cert.KernelIdeal.Fold

end
-- ==== Proof.RefSpec.lean ====
/-
  The reference program's result, named.  The reference computes the coefficients and the four layers by host
  operations alone; its run ends with the result buffer at one long term of those operations over the arguments.
  This module writes that term once with its repeated parts named — the two rows of the edge list, the degrees,
  `dinv`, the edge and node coefficients, the edge sums, a layer — and checks that the run's term is exactly it.
-/
import proofs.«175810_j32117765439962_1_alg».proof.Proof.Gen.ReferenceIdeal.Run
import Idealize.ShloMosaic.PureOps.Ideal

set_option maxRecDepth 16384

noncomputable section

namespace Cert.ReferenceIdeal.Net

open Cert.ReferenceIdeal Cert.ReferenceIdeal.Gen
open Idealize.ShloMosaic Idealize.ShloMosaic.TcCoe Idealize.SL.Sem

/-- Row 0 of the edge list: each edge's source node. -/
def rsrc (a1 : IVec S2x1600000 32) : IVec S1600000 32 :=
  shapeCast _ (extractStridedSlice S1x1600000 ![0, 0] a1 slices_S2x1600000_S1x1600000_0_0) shapeCasts_S1x1600000_S1600000

/-- Row 1 of the edge list: each edge's destination node. -/
def rdst (a1 : IVec S2x1600000 32) : IVec S1600000 32 :=
  shapeCast _ (extractStridedSlice S1x1600000 ![1, 0] a1 slices_S2x1600000_S1x1600000_1_0) shapeCasts_S1x1600000_S1600000

/-- Node indices as a gather reads them, laid as a column: a negative index counts from the end. -/
def rwrapCol (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- Node indices as a scatter reads them, laid as a column. -/
def rrawCol (e : IVec S1600000 32) : IVec S1600000x1 32 :=
  broadcastInDim S1600000x1 ![0] bcast_S1600000_S1600000x1_0 e

/-- One plus the sum of the weights of the edges arriving at each node. -/
def rdeg (d : IVec S1600000 32) (a2 : FVec Ideal S1600000 .f32) : FVec Ideal S100000 .f32 :=
  addf (Host.scatterAdd scatter_S100000_S1600000x1_S1600000_n_0_0_1
      (broadcastInDim S100000 ![] bcast_S_S100000 (constant (F := Ideal) S_ .f32 0x00000000#32)) (rrawCol d) a2)
    (broadcastInDim S100000 ![] bcast_S_S100000 (constant (F := Ideal) S_ .f32 0x3F800000#32))

/-- The inverse square root of the degree where it is positive, zero elsewhere. -/
def rdinv (d : IVec S1600000 32) (a2 : FVec Ideal S1600000 .f32) : FVec Ideal S100000 .f32 :=
  select (cmpf .ogt (rdeg d a2) (broadcastInDim S100000 ![] bcast_S_S100000 (constant (F := Ideal) S_ .f32 0x00000000#32)))
    (Host.rsqrt (rdeg d a2))
    (broadcastInDim S100000 ![] bcast_S_S100000 (id (constant (F := Ideal) S_ .f32 0x00000000#32)))

/-- An edge's coefficient. -/
def renorm (s d : IVec S1600000 32) (a2 : FVec Ideal S1600000 .f32) : FVec Ideal S1600000 .f32 :=
  mulf (mulf (Host.gather gather_S100000_S1600000x1_S1600000_n_0_n_n_0_1_1 (rdinv d a2) (rwrapCol s)) a2)
    (Host.gather gather_S100000_S1600000x1_S1600000_n_0_n_n_0_1_1 (rdinv d a2) (rwrapCol d))

/-- A node's own coefficient. -/
def rsnorm (d : IVec S1600000 32) (a2 : FVec Ideal S1600000 .f32) : FVec Ideal S100000 .f32 :=
  mulf (rdinv d a2) (rdinv d a2)

/-- The edge sums of a layer of width 128. -/
def ragg (s d : IVec S1600000 32) (en : FVec Ideal S1600000 .f32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (rrawCol d)
    (mulf (broadcastInDim S1600000x128 ![0, 1] bcast_S1600000x1_S1600000x128_0_1
        (broadcastInDim S1600000x1 ![0] bcast_S1600000_S1600000x1_0 en))
      (Host.gather gather_S100000x128_S1600000x1_S1600000x128_1_0_n_n_0_1_1128 h (rwrapCol s)))

/-- The edge sums of the last layer, of width 1. -/
def raggLast (s d : IVec S1600000 32) (en : FVec Ideal S1600000 .f32) (h : FVec Ideal S100000x1 .f32) : FVec Ideal S100000x1 .f32 :=
  Host.scatterAdd scatter_S100000x1_S1600000x1_S1600000x1_1_0_0_1
    (broadcastInDim S100000x1 ![] bcast_S_S100000x1 (constant (F := Ideal) S_ .f32 0x00000000#32)) (rrawCol d)
    (mulf (broadcastInDim S1600000x1 ![0] bcast_S1600000_S1600000x1_0 en)
      (Host.gather gather_S100000x1_S1600000x1_S1600000x1_1_0_n_n_0_1_11 h (rwrapCol s)))

/-- One of the first three layers, in the host's operations. -/
def refLayer (s d : IVec S1600000 32) (en : FVec Ideal S1600000 .f32) (sn : FVec Ideal S100000 .f32)
    (x : FVec Ideal S100000x128 .f32) (w : FVec Ideal S128x128 .f32) (b : FVec Ideal S128 .f32) : FVec Ideal S100000x128 .f32 :=
  maximumf
    (addf
      (addf (ragg s d en (Host.dotGeneral dot_S100000x128_S128x128_S100000x128_1_0_0_1_n_n none x w))
        (mulf (broadcastInDim S100000x128 ![0, 1] bcast_S100000x1_S100000x128_0_1
            (broadcastInDim S100000x1 ![0] bcast_S100000_S100000x1_0 sn))
          (Host.dotGeneral dot_S100000x128_S128x128_S100000x128_1_0_0_1_n_n none x w)))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The last layer, in the host's operations. -/
def refLast (s d : IVec S1600000 32) (en : FVec Ideal S1600000 .f32) (sn : FVec Ideal S100000 .f32)
    (x : FVec Ideal S100000x128 .f32) (w : FVec Ideal S128x1 .f32) (b : FVec Ideal S1 .f32) : FVec Ideal S100000x1 .f32 :=
  addf
    (addf (raggLast s d en (Host.dotGeneral dot_S100000x128_S128x1_S100000x1_1_0_0_1_n_n none x w))
      (mulf (broadcastInDim S100000x1 ![0] bcast_S100000_S100000x1_0 sn)
        (Host.dotGeneral dot_S100000x128_S128x1_S100000x1_1_0_0_1_n_n none x w)))
    (broadcastInDim S100000x1 ![0, 1] bcast_S1x1_S100000x1_0_1 (broadcastInDim S1x1 ![1] bcast_S1_S1x1_1 b))

/-- The reference's network. -/
def refNet (a0 : FVec Ideal S100000x128 .f32) (a1 : IVec S2x1600000 32) (a2 : FVec Ideal S1600000 .f32)
    (a3 : FVec Ideal S128x128 .f32) (a4 : FVec Ideal S128 .f32) (a5 : FVec Ideal S128x128 .f32) (a6 : FVec Ideal S128 .f32)
    (a7 : FVec Ideal S128x1 .f32) (a8 : FVec Ideal S1 .f32) : FVec Ideal S100000x1 .f32 :=
  refLast (rsrc a1) (rdst a1) (renorm (rsrc a1) (rdst a1) a2) (rsnorm (rdst a1) a2)
    (refLayer (rsrc a1) (rdst a1) (renorm (rsrc a1) (rdst a1) a2) (rsnorm (rdst a1) a2)
      (refLayer (rsrc a1) (rdst a1) (renorm (rsrc a1) (rdst a1) a2) (rsnorm (rdst a1) a2)
        (refLayer (rsrc a1) (rdst a1) (renorm (rsrc a1) (rdst a1) a2) (rsnorm (rdst a1) a2) a0 a3 a4)
        a5 a6) a5 a6) a7 a8

/-- The reference run's result term is the reference's network of the arguments: the same operations in the same
    order, letter for letter once the names are opened. -/
theorem res_eq (m : (ℓ : Loc nD τ sig) → Buf (Elt Ideal) ℓ) (c : Dev nD) :
    Cert.ReferenceIdeal.Value.res_main_v130 m c
      = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v130 refNet refLast refLayer ragg raggLast rsnorm renorm rdinv rdeg rrawCol rwrapCol rdst rsrc
  with_reducible rfl

end Cert.ReferenceIdeal.Net

end
-- ==== Proof.LibLay.lean ====
import Idealize.ShloMosaic.Lib.ValueIdx
import Idealize.ShloMosaic.Lib.ValueLayout
import Idealize.ShloMosaic.Lib.Pipeline.Value

/-!
# Rows, columns and scalars spread over a matrix, read at an entry

A vector laid along the columns of one row, a row repeated down the rows, a vector laid down one column, a
column repeated across the columns, a scalar everywhere: each read at an entry is the operand at the
evident place.
-/

namespace Cert.Lay

open Idealize.ShloMosaic Idealize.ShloMosaic.ValueIdx

variable {α : Type}

/-- A scalar spread over any shape reads the scalar everywhere. -/
theorem scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector of length b as the one row of a [1, b] matrix. -/
theorem vecRow_apply {b : Nat} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x _ _ fun a => ?_
  match a with
  | ⟨0, _⟩ =>
    show c.val = if b = 1 then 0 else c.val
    split
    · have := c.isLt; omega
    · rfl

/-- One row repeated down a rows. -/
theorem rowRep_apply {a b : Nat} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x _ _ fun ax => ?_
  match ax with
  | ⟨0, _⟩ => rfl
  | ⟨1, _⟩ =>
    show c.val = if b = 1 then 0 else c.val
    split
    · have := c.isLt; omega
    · rfl

/-- A vector of length a as the one column of an [a, 1] matrix (by broadcasting). -/
theorem vecCol_apply {a : Nat} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x _ _ fun ax => ?_
  match ax with
  | ⟨0, _⟩ =>
    show p.val = if a = 1 then 0 else p.val
    split
    · have := p.isLt; omega
    · rfl

/-- A vector of length a recast as an [a, 1] matrix. -/
theorem vecColCast_apply {a : Nat} (h : (⟨1, ![a]⟩ : Shape).ShapeCasts ⟨2, ![a, 1]⟩)
    (x : (⟨1, ![a]⟩ : Shape).Idx → α) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across b columns. -/
theorem colRep_apply {a b : Nat} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

end Cert.Lay
-- ==== Proof.HostCombine.lean ====
/-
  The combine step written with the host's broadcasts is the combine step entry by entry.  For any extents M and N:
  a coefficient vector of length M spread as a column and then across N columns reads the row's coefficient in every
  column; a bias vector of length N spread as a row and then down M rows reads the column's bias in every row; the
  same two vectors recast as a column and as a row read the same entries; and the maximum with a zero array is the
  clamp at zero.
-/
import proofs.«175810_j32117765439962_1_alg».proof.Proof.Spec
import proofs.«175810_j32117765439962_1_alg».proof.Proof.LibLay
import Idealize.ShloMosaic.Lib.Pipeline.Value

noncomputable section

namespace Cert.KernelIdeal.Spec

open Idealize.ShloMosaic Idealize.ShloMosaic.ValueIdx

/-- A vector of length b recast as the one row of a [1, b] matrix. -/
theorem vecRowCast_apply {α : Type} {b : Nat} (h : (⟨1, ![b]⟩ : Shape).ShapeCasts ⟨2, ![1, b]⟩)
    (x : (⟨1, ![b]⟩ : Shape).Idx → α) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The host's combine of a layer of width N, clamped at zero. -/
theorem hostCombineRelu_eq {M N : Nat} (a h : FVec Ideal ⟨2, ![M, N]⟩ .f32) (sn : FVec Ideal ⟨1, ![M]⟩ .f32) (b : FVec Ideal ⟨1, ![N]⟩ .f32)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h5 : (⟨0, ![]⟩ : Shape).BroadcastsInDim ⟨2, ![M, N]⟩ (![] : Fin 0 → Fin 2))
    (c1 : (⟨1, ![M]⟩ : Shape).ShapeCasts ⟨2, ![M, 1]⟩) (c2 : (⟨1, ![N]⟩ : Shape).ShapeCasts ⟨2, ![1, N]⟩) :
    maximumf
        (addf (addf a (mulf (broadcastInDim ⟨2, ![M, N]⟩ ![0, 1] h2 (broadcastInDim ⟨2, ![M, 1]⟩ ![0] h1 sn)) h))
          (broadcastInDim ⟨2, ![M, N]⟩ ![0, 1] h4 (broadcastInDim ⟨2, ![1, N]⟩ ![1] h3 b)))
        (broadcastInDim ⟨2, ![M, N]⟩ ![] h5 (constant (F := Ideal) ⟨0, ![]⟩ .f32 0x00000000#32))
      = cbRelu a h (shapeCast ⟨2, ![M, 1]⟩ sn c1) (shapeCast ⟨2, ![1, N]⟩ b c2) := by
  funext i
  obtain ⟨p, q, rfl⟩ : ∃ (p : Fin M) (q : Fin N), i = ix2 p q := ⟨i 0, i 1, eq_ix2 i⟩
  show max ((a (ix2 p q)
        + broadcastInDim ⟨2, ![M, N]⟩ ![0, 1] h2 (broadcastInDim ⟨2, ![M, 1]⟩ ![0] h1 sn) (ix2 p q) * h (ix2 p q))
      + broadcastInDim ⟨2, ![M, N]⟩ ![0, 1] h4 (broadcastInDim ⟨2, ![1, N]⟩ ![1] h3 b) (ix2 p q))
      (broadcastInDim ⟨2, ![M, N]⟩ ![] h5 (constant (F := Ideal) ⟨0, ![]⟩ .f32 0x00000000#32) (ix2 p q))
    = max ((a (ix2 p q) + shapeCast ⟨2, ![M, 1]⟩ sn c1 (ix2 p (0 : Fin 1)) * h (ix2 p q))
      + shapeCast ⟨2, ![1, N]⟩ b c2 (ix2 (0 : Fin 1) q)) (Ideal.ofBits .f32 0x00000000#32)
  rw [Cert.Lay.colRep_apply, Cert.Lay.vecCol_apply, Cert.Lay.rowRep_apply, Cert.Lay.vecRow_apply, Cert.Lay.scalar_apply,
    Cert.Lay.vecColCast_apply, vecRowCast_apply]
  rfl

/-- The host's combine of the last layer, of width 1: the coefficient column is the vector spread once. -/
theorem hostCombineLast_eq {M : Nat} (a h : FVec Ideal ⟨2, ![M, 1]⟩ .f32) (sn : FVec Ideal ⟨1, ![M]⟩ .f32) (b : FVec Ideal ⟨1, ![1]⟩ .f32)
    (h1 : (⟨1, ![M]⟩ : Shape).BroadcastsInDim ⟨2, ![M, 1]⟩ (![0] : Fin 1 → Fin 2))
    (h3 : (⟨1, ![1]⟩ : Shape).BroadcastsInDim ⟨2, ![1, 1]⟩ (![1] : Fin 1 → Fin 2))
    (h4 : (⟨2, ![1, 1]⟩ : Shape).BroadcastsInDim ⟨2, ![M, 1]⟩ (![0, 1] : Fin 2 → Fin 2))
    (c1 : (⟨1, ![M]⟩ : Shape).ShapeCasts ⟨2, ![M, 1]⟩) (c2 : (⟨1, ![1]⟩ : Shape).ShapeCasts ⟨2, ![1, 1]⟩) :
    addf (addf a (mulf (broadcastInDim ⟨2, ![M, 1]⟩ ![0] h1 sn) h))
        (broadcastInDim ⟨2, ![M, 1]⟩ ![0, 1] h4 (broadcastInDim ⟨2, ![1, 1]⟩ ![1] h3 b))
      = cb a h (shapeCast ⟨2, ![M, 1]⟩ sn c1) (shapeCast ⟨2, ![1, 1]⟩ b c2) := by
  funext i
  obtain ⟨p, q, rfl⟩ : ∃ (p : Fin M) (q : Fin 1), i = ix2 p q := ⟨i 0, i 1, eq_ix2 i⟩
  have hq : q = (0 : Fin 1) := Subsingleton.elim _ _
  subst hq
  show (a (ix2 p 0) + broadcastInDim ⟨2, ![M, 1]⟩ ![0] h1 sn (ix2 p 0) * h (ix2 p 0))
      + broadcastInDim ⟨2, ![M, 1]⟩ ![0, 1] h4 (broadcastInDim ⟨2, ![1, 1]⟩ ![1] h3 b) (ix2 p 0)
    = (a (ix2 p 0) + shapeCast ⟨2, ![M, 1]⟩ sn c1 (ix2 p (0 : Fin 1)) * h (ix2 p 0))
      + shapeCast ⟨2, ![1, 1]⟩ b c2 (ix2 (0 : Fin 1) (0 : Fin 1))
  rw [Cert.Lay.vecCol_apply, Cert.Lay.rowRep_apply, Cert.Lay.vecRow_apply, Cert.Lay.vecColCast_apply, vecRowCast_apply]

end Cert.KernelIdeal.Spec

end
-- ==== Proof.RefNet.lean ====
/-
  The reference's network is the network.  The reference's named parts (Proof/RefSpec.lean) are, part by part, the
  kernel program's own: the two programs print the same host operations for the edge list's rows, the coefficients
  and the edge sums.  What differs is how a layer is finished.  The host's matrix product is the same sum entry by
  entry; a coefficient vector spread as a column and then across the columns reads the node's coefficient in every
  column; a bias vector spread as a row and then down the rows reads the column's bias in every row; and the maximum
  with a zero array is the clamp at zero.
-/
import proofs.«175810_j32117765439962_1_alg».proof.Proof.RefSpec
import proofs.«175810_j32117765439962_1_alg».proof.Proof.Spec
import proofs.«175810_j32117765439962_1_alg».proof.Proof.MmBlock
import proofs.«175810_j32117765439962_1_alg».proof.Proof.HostCombine
import Idealize.ShloMosaic.Lib.Pipeline.Value

set_option maxRecDepth 16384

noncomputable section

namespace Cert.ReferenceIdeal.Net

open Cert.ReferenceIdeal Cert.ReferenceIdeal.Gen
open Idealize.ShloMosaic Idealize.ShloMosaic.TcCoe Idealize.ShloMosaic.ValueIdx Idealize.SL.Sem
open Cert.KernelIdeal (Spec.src Spec.dst Spec.enorm Spec.snorm Spec.sncol Spec.agg Spec.aggLast Spec.mm Spec.cb Spec.cbRelu Spec.layer Spec.lastLayer Spec.net)

/-! ## The shared host operations -/

theorem rsrc_eq (a1 : IVec S2x1600000 32) : rsrc a1 = Spec.src a1 := rfl
theorem rdst_eq (a1 : IVec S2x1600000 32) : rdst a1 = Spec.dst a1 := rfl
theorem renorm_eq (s d : IVec S1600000 32) (a2 : FVec Ideal S1600000 .f32) : renorm s d a2 = Spec.enorm s d a2 := rfl
theorem rsnorm_eq (d : IVec S1600000 32) (a2 : FVec Ideal S1600000 .f32) : rsnorm d a2 = Spec.snorm d a2 := rfl
theorem ragg_eq (s d : IVec S1600000 32) (en : FVec Ideal S1600000 .f32) (h : FVec Ideal S100000x128 .f32) :
    ragg s d en h = Spec.agg s d en h := rfl
theorem raggLast_eq (s d : IVec S1600000 32) (en : FVec Ideal S1600000 .f32) (h : FVec Ideal S100000x1 .f32) :
    raggLast s d en h = Spec.aggLast s d en h := rfl

/-- The reference's dimension numbers for its products are the plain ones. -/
theorem dot128_eq (x : FVec Ideal S100000x128 .f32) (w : FVec Ideal S128x128 .f32) :
    Host.dotGeneral dot_S100000x128_S128x128_S100000x128_1_0_0_1_n_n none x w
      = Spec.mm (M := 100000) (K := 128) (N := 128) x w :=
  Cert.KernelIdeal.Spec.dotGeneral_eq_mm (M := 100000) (K := 128) (N := 128) x w
theorem dot1_eq (x : FVec Ideal S100000x128 .f32) (w : FVec Ideal S128x1 .f32) :
    Host.dotGeneral dot_S100000x128_S128x1_S100000x1_1_0_0_1_n_n none x w
      = Spec.mm (M := 100000) (K := 128) (N := 1) x w :=
  Cert.KernelIdeal.Spec.dotGeneral_eq_mm (M := 100000) (K := 128) (N := 1) x w

/-! ## A layer -/

/-- A layer of the reference is the layer. -/
theorem refLayer_eq (s d : IVec S1600000 32) (en : FVec Ideal S1600000 .f32) (sn : FVec Ideal S100000 .f32)
    (x : FVec Ideal S100000x128 .f32) (w : FVec Ideal S128x128 .f32) (b : FVec Ideal S128 .f32) :
    refLayer s d en sn x w b
      = Spec.layer s d en (shapeCast _ sn Cert.KernelIdeal.Facts₀.shapeCasts_S100000_S100000x1) x w b := by
  unfold refLayer Spec.layer
  rw [ragg_eq, dot128_eq]
  exact Cert.KernelIdeal.Spec.hostCombineRelu_eq (M := 100000) (N := 128) _ _ sn b _ _ _ _ _ _ _

/-- The last layer of the reference is the last layer. -/
theorem refLast_eq (s d : IVec S1600000 32) (en : FVec Ideal S1600000 .f32) (sn : FVec Ideal S100000 .f32)
    (x : FVec Ideal S100000x128 .f32) (w : FVec Ideal S128x1 .f32) (b : FVec Ideal S1 .f32) :
    refLast s d en sn x w b
      = Spec.lastLayer s d en (shapeCast _ sn Cert.KernelIdeal.Facts₀.shapeCasts_S100000_S100000x1) x w b := by
  unfold refLast Spec.lastLayer
  rw [raggLast_eq, dot1_eq]
  exact Cert.KernelIdeal.Spec.hostCombineLast_eq (M := 100000) _ _ sn b _ _ _ _ _

/-- The reference's network is the network. -/
theorem refNet_eq (a0 : FVec Ideal S100000x128 .f32) (a1 : IVec S2x1600000 32) (a2 : FVec Ideal S1600000 .f32)
    (a3 : FVec Ideal S128x128 .f32) (a4 : FVec Ideal S128 .f32) (a5 : FVec Ideal S128x128 .f32) (a6 : FVec Ideal S128 .f32)
    (a7 : FVec Ideal S128x1 .f32) (a8 : FVec Ideal S1 .f32) :
    refNet a0 a1 a2 a3 a4 a5 a6 a7 a8 = Spec.net a0 a1 a2 a3 a4 a5 a6 a7 a8 := by
  unfold refNet Spec.net Spec.sncol
  rw [refLast_eq, refLayer_eq, refLayer_eq, refLayer_eq, rsrc_eq, rdst_eq, renorm_eq, rsnorm_eq]

end Cert.ReferenceIdeal.Net

end
-- ==== Proof.lean ====
/-
  A four-layer graph convolution network on 100000 nodes and 1600000 weighted edges: the kernel's program against
  its plain reference.

  Both programs derive the same coefficients from the edge list and the edge weights (a node's degree is one plus the
  weights arriving at it; `dinv` its inverse square root; an edge's coefficient is its weight times `dinv` at both
  ends, a node's own coefficient `dinv` squared), and both apply four times: multiply the node features by a weight
  matrix, sum along the edges the coefficient times the product's row at the source into the destination's row, add
  the node's own coefficient times its own row and a bias row, and (in the first three layers) clamp at zero.  The
  kernel's program does the product and the combine in launches over blocks of 4000 rows, the reference on the host;
  the gathers and the sums along the edges are the same host operations in both.

  On the extended reals the two are one function, `net` (Proof/Spec.lean), with no law beyond reading each side
  entry by entry: a block product into a zero accumulator is the host product's sum (narrowing the factors to sixteen
  bits changes nothing there), the blocks of 4000 rows tile the arrays, and a column or a row spread over a matrix by
  either program's broadcasts reads the same entry.  The kernel's run reaches `net` by reading the fold of its fifteen
  segments (Proof/Walk.lean over Proof/Launch0 … Launch7.lean and Proof/Keep.lean), the reference's run by naming its
  result term (Proof/RefNet.lean).  No precondition is used: the equality holds at every extended real.
-/
import proofs.«175810_j32117765439962_1_alg».proof.Defs
import proofs.«175810_j32117765439962_1_alg».proof.Proof.Gen.Kernel
import proofs.«175810_j32117765439962_1_alg».proof.Proof.Gen.Kernel.Skeleton
import proofs.«175810_j32117765439962_1_alg».proof.Proof.Gen.Kernel.Launch
import proofs.«175810_j32117765439962_1_alg».proof.Proof.Gen.Kernel.Points
import proofs.«175810_j32117765439962_1_alg».proof.Proof.Gen.Kernel.Frame
import proofs.«175810_j32117765439962_1_alg».proof.Proof.Gen.KernelIdeal
import proofs.«175810_j32117765439962_1_alg».proof.Proof.Gen.KernelIdeal.Skeleton
import proofs.«175810_j32117765439962_1_alg».proof.Proof.Gen.KernelIdeal.Launch
import proofs.«175810_j32117765439962_1_alg».proof.Proof.Gen.KernelIdeal.Points
import proofs.«175810_j32117765439962_1_alg».proof.Proof.Gen.KernelIdeal.Frame
import proofs.«175810_j32117765439962_1_alg».proof.Proof.Gen.ReferenceIdeal
import proofs.«175810_j32117765439962_1_alg».proof.Proof.Gen.ReferenceIdeal.Run
import proofs.«175810_j32117765439962_1_alg».proof.Proof.Gen.Pre_finite_inputs
import proofs.«175810_j32117765439962_1_alg».proof.Proof.KernelRun
import proofs.«175810_j32117765439962_1_alg».proof.Proof.RefNet
import Idealize.ShloMosaic.Adequacy
import Idealize.ShloMosaic.Init

noncomputable section

namespace Cert.Proof

open Idealize.ShloMosaic Idealize.SL.Sem

/-- The word-level kernel runs and leaves its arguments: the generated frame. -/
theorem frame_k : Cert.frame_Kernel := fun m ρ _ => Cert.Kernel.Gen.frame m ρ

/-- The idealized kernel runs and leaves its arguments: the generated frame. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the network of the arguments. -/
theorem algebraic : Cert.algebraic_KernelIdeal_ReferenceIdeal := by
  intro m ρ m' ρ' _ hagree
  refine ⟨fun c => Cert.KernelIdeal.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Fold.run_net m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Net.res_eq, Cert.ReferenceIdeal.Net.refNet_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
